-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S50000x32 : Shape := ⟨2, ![50000, 32]⟩
abbrev S2x800000 : Shape := ⟨2, ![2, 800000]⟩
abbrev S800000 : Shape := ⟨1, ![800000]⟩
abbrev S4x128x96 : Shape := ⟨3, ![4, 128, 96]⟩
abbrev S4x96 : Shape := ⟨2, ![4, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S4x128x96 : S_.BroadcastsInDim S4x128x96 (![] : Fin 0 → Fin S4x128x96.rank)
  reducesTo_S4x128x96_S_d0_1_2 : S4x128x96.ReducesTo [0, 1, 2] S_
  bcast_S_S4x96 : S_.BroadcastsInDim S4x96 (![] : Fin 0 → Fin S4x96.rank)
  reducesTo_S4x96_S_d0_1 : S4x96.ReducesTo [0, 1] S_

variable [Facts]

def fn_part1 {F : FTy → Type} [FloatOps F] (main_v13 : IVec S_ 1) (main_v16 : IVec S4x96 1) : IVec S_ 1 :=
  let main_c_5 : IVec S_ 1 := constantI S_ 1 1#1
  let main_v17 : IVec S_ 1 := (fun x v => Host.reduce IntOp.andi x v reducesTo_S4x96_S_d0_1 h_S_) main_v16 main_c_5
  let main_v18 : IVec S_ 1 := andi main_v13 main_v17
  main_v18

def fn {F : FTy → Type} [FloatOps F] (main_arg0 : FVec F S50000x96 .f32) (main_arg1 : FVec F S50000x32 .f32) (main_arg2 : IVec S2x800000 32) (main_arg3 : IVec S800000 32) (main_arg4 : FVec F S4x128x96 .f32) (main_arg5 : FVec F S4x96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S4x128x96 .f32 := Host.absf main_arg4
  let main_cst_2 : FVec F S_ .f32 := constant S_ .f32 0x7F800000#32
  let main_v10 : FVec F S4x128x96 .f32 := broadcastInDim S4x128x96 ![] bcast_S_S4x128x96 main_cst_2
  let main_v11 : IVec S4x128x96 1 := cmpf .olt main_v9 main_v10
  let main_c_3 : IVec S_ 1 := constantI S_ 1 1#1
  let main_v12 : IVec S_ 1 := (fun x v => Host.reduce IntOp.andi x v reducesTo_S4x128x96_S_d0_1_2 h_S_) main_v11 main_c_3
  let main_v13 : IVec S_ 1 := andi main_v8 main_v12
  let main_v14 : FVec F S4x96 .f32 := Host.absf main_arg5
  let main_cst_4 : FVec F S_ .f32 := constant S_ .f32 0x7F800000#32
  let main_v15 : FVec F S4x96 .f32 := broadcastInDim S4x96 ![] bcast_S_S4x96 main_cst_4
  let main_v16 : IVec S4x96 1 := cmpf .olt main_v14 main_v15
  fn_part1 (F := F) main_v13 main_v16
-- ==== Kernel.lean ====
abbrev S50000x96 : Shape := ⟨2, ![50000, 96]⟩
abbrev S50000x32 : Shape := ⟨2, ![50000, 32]⟩
abbrev S2x800000 : Shape := ⟨2, ![2, 800000]⟩
abbrev S800000 : Shape := ⟨1, ![800000]⟩
abbrev S4x128x96 : Shape := ⟨3, ![4, 128, 96]⟩
abbrev S4x96 : Shape := ⟨2, ![4, 96]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S800000x96 : Shape := ⟨2, ![800000, 96]⟩
abbrev S4x128x128 : Shape := ⟨3, ![4, 128, 128]⟩
abbrev S1 : Shape := ⟨1, ![1]⟩
abbrev S128x4x128 : Shape := ⟨3, ![128, 4, 128]⟩
abbrev S128x512 : Shape := ⟨2, ![128, 512]⟩
abbrev S4x128 : Shape := ⟨2, ![4, 128]⟩
abbrev S3200x96 : Shape := ⟨2, ![3200, 96]⟩
abbrev S3200x32 : Shape := ⟨2, ![3200, 32]⟩
abbrev S3200x1 : Shape := ⟨2, ![3200, 1]⟩
abbrev S3200x128 : Shape := ⟨2, ![3200, 128]⟩
abbrev S3200x512 : Shape := ⟨2, ![3200, 512]⟩
abbrev S1x128 : Shape := ⟨2, ![1, 128]⟩
abbrev S128 : Shape := ⟨1, ![128]⟩

abbrev nBuf : Space → Nat
  | .hbm => 75
  | .vmem => 11
  | .smem => 0
  | _ => 0

abbrev bufTy : (tb : Table) → Fin (tcTables nBuf tb) → BufTy
  | .hbm, ⟨0, _⟩ => ⟨S50000x96, .f32⟩
  | .hbm, ⟨1, _⟩ => ⟨S50000x32, .f32⟩
  | .hbm, ⟨2, _⟩ => ⟨S2x800000, .i32⟩
  | .hbm, ⟨3, _⟩ => ⟨S800000, .i32⟩
  | .hbm, ⟨4, _⟩ => ⟨S4x128x96, .f32⟩
  | .hbm, ⟨5, _⟩ => ⟨S4x96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x32, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x32, .f32⟩
  | .hbm, ⟨28, _⟩ => ⟨S800000x32, .f32⟩
  | .hbm, ⟨29, _⟩ => ⟨S800000x32, .f32⟩
  | .hbm, ⟨30, _⟩ => ⟨S800000x32, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x96, .f32⟩
  | .hbm, ⟨40, _⟩ => ⟨S800000x96, .bf16⟩
  | .hbm, ⟨41, _⟩ => ⟨S800000x1, .i32⟩
  | .hbm, ⟨42, _⟩ => ⟨S_, .i32⟩
  | .hbm, ⟨43, _⟩ => ⟨S_, .bf16⟩
  | .hbm, ⟨44, _⟩ => ⟨S800000x96, .bf16⟩
  | .hbm, ⟨45, _⟩ => ⟨S_, .i32⟩
  | .hbm, ⟨46, _⟩ => ⟨S_, .bf16⟩
  | .hbm, ⟨47, _⟩ => ⟨S800000x32, .bf16⟩
  | .hbm, ⟨48, _⟩ => ⟨S_, .i32⟩
  | .hbm, ⟨49, _⟩ => ⟨S_, .i32⟩
  | .hbm, ⟨50, _⟩ => ⟨S800000x1, .i32⟩
  | .hbm, ⟨51, _⟩ => ⟨S_, .i32⟩
  | .hbm, ⟨52, _⟩ => ⟨S_, .i32⟩
  | .hbm, ⟨53, _⟩ => ⟨S800000, .i32⟩
  | .hbm, ⟨54, _⟩ => ⟨S_, .f32⟩
  | .hbm, ⟨55, _⟩ => ⟨S4x128x128, .f32⟩
  | .hbm, ⟨56, _⟩ => ⟨S_, .i32⟩
  | .hbm, ⟨57, _⟩ => ⟨S1, .i32⟩
  | .hbm, ⟨58, _⟩ => ⟨S4x128x128, .f32⟩
  | .hbm, ⟨59, _⟩ => ⟨S128x4x128, .f32⟩
  | .hbm, ⟨60, _⟩ => ⟨S128x512, .f32⟩
  | .hbm, ⟨61, _⟩ => ⟨S128x512, .bf16⟩
  | .hbm, ⟨62, _⟩ => ⟨S_, .f32⟩
  | .hbm, ⟨63, _⟩ => ⟨S4x128, .f32⟩
  | .hbm, ⟨64, _⟩ => ⟨S_, .i32⟩
  | .hbm, ⟨65, _⟩ => ⟨S1, .i32⟩
  | .hbm, ⟨66, _⟩ => ⟨S4x128, .f32⟩
  | .hbm, ⟨67, _⟩ => ⟨S800000x96, .f32⟩
  | .hbm, ⟨68, _⟩ => ⟨S_, .f32⟩
  | .hbm, ⟨69, _⟩ => ⟨S50000x96, .f32⟩
  | .hbm, ⟨70, _⟩ => ⟨S800000x1, .i32⟩
  | .hbm, ⟨71, _⟩ => ⟨S50000x96, .f32⟩
  | .hbm, ⟨72, _⟩ => ⟨S_, .f32⟩
  | .hbm, ⟨73, _⟩ => ⟨S50000x96, .f32⟩
  | .hbm, ⟨74, _⟩ => ⟨S50000x96, .f32⟩
  | .local _ .vmem, ⟨0, _⟩ => ⟨S3200x96, .bf16⟩
  | .local _ .vmem, ⟨1, _⟩ => ⟨S3200x96, .bf16⟩
  | .local _ .vmem, ⟨2, _⟩ => ⟨S3200x32, .bf16⟩
  | .local _ .vmem, ⟨3, _⟩ => ⟨S3200x32, .bf16⟩
  | .local _ .vmem, ⟨4, _⟩ => ⟨S3200x1, .i32⟩
  | .local _ .vmem, ⟨5, _⟩ => ⟨S3200x1, .i32⟩
  | .local _ .vmem, ⟨6, _⟩ => ⟨S128x512, .bf16⟩
  | .local _ .vmem, ⟨7, _⟩ => ⟨S4x128, .f32⟩
  | .local _ .vmem, ⟨8, _⟩ => ⟨S3200x96, .f32⟩
  | .local _ .vmem, ⟨9, _⟩ => ⟨S3200x96, .f32⟩
  | .local _ .vmem, ⟨10, _⟩ => ⟨S3200x128, .bf16⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_call0_v0 : Ref sig .tc := ⟨.hbm, 43, rfl⟩
abbrev main_v30 : Ref sig .tc := ⟨.hbm, 44, rfl⟩
abbrev main_c_6 : Ref sig .tc := ⟨.hbm, 45, rfl⟩
abbrev main_call1_v0 : Ref sig .tc := ⟨.hbm, 46, rfl⟩
abbrev main_v31 : Ref sig .tc := ⟨.hbm, 47, rfl⟩
abbrev main_c_7 : Ref sig .tc := ⟨.hbm, 48, rfl⟩
abbrev main_call2_v0 : Ref sig .tc := ⟨.hbm, 49, rfl⟩
abbrev main_v32 : Ref sig .tc := ⟨.hbm, 50, rfl⟩
abbrev main_c_8 : Ref sig .tc := ⟨.hbm, 51, rfl⟩
abbrev main_call3_v0 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  shapeCasts_S800000_S800000x1 : S800000.ShapeCasts S800000x1
  pads_S800000x96_S800000x96_000_000 : S800000x96.Pads (![0, 0] : Fin 2 → Nat) ![0, 0] ![0, 0] S800000x96
  h_S_ : 0 < S_.numel
  pads_S800000x32_S800000x32_000_000 : S800000x32.Pads (![0, 0] : Fin 2 → Nat) ![0, 0] ![0, 0] S800000x32
  pads_S800000x1_S800000x1_000_000 : S800000x1.Pads (![0, 0] : Fin 2 → Nat) ![0, 0] ![0, 0] S800000x1
  pads_S800000_S800000_000 : S800000.Pads (![0] : Fin 1 → Nat) ![0] ![0] S800000
  bcast_S_S4x128x128 : S_.BroadcastsInDim S4x128x128 (![] : Fin 0 → Fin S4x128x128.rank)
  bcast_S_S1 : S_.BroadcastsInDim S1 (![] : Fin 0 → Fin S1.rank)
  transposes_S4x128x128_S128x4x128_1_0_2 : S4x128x128.Transposes [1, 0, 2] S128x4x128
  shapeCasts_S128x4x128_S128x512 : S128x4x128.ShapeCasts S128x512
  bcast_S_S4x128 : S_.BroadcastsInDim S4x128 (![] : Fin 0 → Fin S4x128.rank)
  inb_S3200x96_S3200x96_0_0 : ∀ a, (![0, 0] : Fin 2 → Nat) a + S3200x96.size a ≤ S3200x96.size a
  h_S3200x96 : 0 < S3200x96.numel
  shapeCasts_S3200x96_S3200x96 : S3200x96.ShapeCasts S3200x96
  inb_S3200x128_S3200x96_0_0 : ∀ a, (![0, 0] : Fin 2 → Nat) a + S3200x96.size a ≤ S3200x128.size a
  packedbf16_S3200x128_S3200x96_0_0 : (Rect.unit (s := S3200x128) ![0, 0] S3200x96.size inb_S3200x128_S3200x96_0_0).PackedRows (EltTy.packing .bf16)
  inb_S3200x32_S3200x32_0_0 : ∀ a, (![0, 0] : Fin 2 → Nat) a + S3200x32.size a ≤ S3200x32.size a
  h_S3200x32 : 0 < S3200x32.numel
  shapeCasts_S3200x32_S3200x32 : S3200x32.ShapeCasts S3200x32
  inb_S3200x128_S3200x32_0_96 : ∀ a, (![0, 96] : Fin 2 → Nat) a + S3200x32.size a ≤ S3200x128.size a
  packedbf16_S3200x128_S3200x32_0_96 : (Rect.unit (s := S3200x128) ![0, 96] S3200x32.size inb_S3200x128_S3200x32_0_96).PackedRows (EltTy.packing .bf16)
  inb_S3200x128_S3200x128_0_0 : ∀ a, (![0, 0] : Fin 2 → Nat) a + S3200x128.size a ≤ S3200x128.size a
  h_S3200x128 : 0 < S3200x128.numel
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S3200x512_o0_0_S3200x128 : S3200x512.Slices ![0, 0] S3200x128
  inb_S4x128_S1x128_0_0 : ∀ a, (![0, 0] : Fin 2 → Nat) a + S1x128.size a ≤ S4x128.size a
  h_S1x128 : 0 < S1x128.numel
  shapeCasts_S1x128_S128 : S1x128.ShapeCasts S128
  natLt_1_32 : 1 < 32
  shapeCasts_S128_S1x128 : S128.ShapeCasts S1x128
  broadcasts_S1x128_S3200x128 : S1x128.Broadcasts S3200x128
  broadcasts_S3200x1_S3200x128 : S3200x1.Broadcasts S3200x128
  slices_S3200x512_o0_128_S3200x128 : S3200x512.Slices ![0, 128] S3200x128
  inb_S4x128_S1x128_1_0 : ∀ a, (![1, 0] : Fin 2 → Nat) a + S1x128.size a ≤ S4x128.size a
  slices_S3200x512_o0_256_S3200x128 : S3200x512.Slices ![0, 256] S3200x128
  inb_S4x128_S1x128_2_0 : ∀ a, (![2, 0] : Fin 2 → Nat) a + S1x128.size a ≤ S4x128.size a
  slices_S3200x512_o0_384_S3200x128 : S3200x512.Slices ![0, 384] S3200x128
  inb_S4x128_S1x128_3_0 : ∀ a, (![3, 0] : Fin 2 → Nat) a + S1x128.size a ≤ S4x128.size a
  slices_S3200x128_o0_0_S3200x96 : S3200x128.Slices ![0, 0] S3200x96
  bcast_S_S50000x96 : S_.BroadcastsInDim S50000x96 (![] : Fin 0 → Fin S50000x96.rank)
  gather_S50000x32_S800000x1_S800000x32_1_0_n_n_0_1_132_wf : GatherDims.WF S50000x32 S800000x1 S800000x32 [1] [0] [] [0] [] 1 ![1, 32]
  gather_S50000x96_S800000x1_S800000x96_1_0_n_n_0_1_196_wf : GatherDims.WF S50000x96 S800000x1 S800000x96 [1] [0] [] [0] [] 1 ![1, 96]
  scatter_S4x128x128_S1_S4x128x96_012_n_2_0_wf : ScatterDims.WF S4x128x128 S1 S4x128x96 [0, 1, 2] [] [2] 0
  scatter_S4x128_S1_S4x96_01_n_1_0_wf : ScatterDims.WF S4x128 S1 S4x96 [0, 1] [] [1] 0
  dot_S3200x128_S128x512_S3200x512_1_0_0_1_n_n_wf : DotDims.WF S3200x128 S128x512 S3200x512 [1] [0] [0] [1] [] []
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x96.size a ≤ S800000x96.size a
  hwx0_0 : ∀ i : grid0.Coords, EltTy.bits .bf16 = 32 ∨ (Rect.block (s := S800000x96) S3200x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x32.size a ≤ S800000x32.size a
  hwx0_1 : ∀ i : grid0.Coords, EltTy.bits .bf16 = 32 ∨ (Rect.block (s := S800000x32) S3200x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S800000x1.size a
  hwx0_2 : ∀ i : grid0.Coords, EltTy.bits .i32 = 32 ∨ (Rect.block (s := S800000x1) S3200x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x128.size a
  hwx0_4 : ∀ i : grid0.Coords, EltTy.bits .f32 = 32 ∨ (Rect.block (s := S4x128) S4x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x96.size a ≤ S800000x96.size a
  hwx0_5 : ∀ i : grid0.Coords, EltTy.bits .f32 = 32 ∨ (Rect.block (s := S800000x96) S3200x96.size (cc0_transform_5 i) (hinb0_5 i)).WholeWords (EltTy.packing .f32)

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S4x128x128_S1_S4x128x96_012_n_2_0 : ScatterDims S4x128x128 S1 S4x128x96 where
  updateWindowDims := [0, 1, 2]
  insertedWindowDims := []
  scatterDimsToOperandDims := [2]
  indexVectorDim := 0
  wf := scatter_S4x128x128_S1_S4x128x96_012_n_2_0_wf
def scatter_S4x128_S1_S4x96_01_n_1_0 : ScatterDims S4x128 S1 S4x96 where
  updateWindowDims := [0, 1]
  insertedWindowDims := []
  scatterDimsToOperandDims := [1]
  indexVectorDim := 0
  wf := scatter_S4x128_S1_S4x96_01_n_1_0_wf
def dot_S3200x128_S128x512_S3200x512_1_0_0_1_n_n : DotDims S3200x128 S128x512 S3200x512 where
  lhsContracting := [1]
  rhsContracting := [0]
  lhsNonContracting := [0]
  rhsNonContracting := [1]
  lhsBatch := []
  rhsBatch := []
  wf := dot_S3200x128_S128x512_S3200x512_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_v30) S3200x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S3200x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S4x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S3200x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x96 : Shape := ⟨2, ![50000, 96]⟩
abbrev S50000x32 : Shape := ⟨2, ![50000, 32]⟩
abbrev S2x800000 : Shape := ⟨2, ![2, 800000]⟩
abbrev S800000 : Shape := ⟨1, ![800000]⟩
abbrev S4x128x96 : Shape := ⟨3, ![4, 128, 96]⟩
abbrev S4x96 : Shape := ⟨2, ![4, 96]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S800000x96 : Shape := ⟨2, ![800000, 96]⟩
abbrev S800000x128 : Shape := ⟨2, ![800000, 128]⟩
abbrev S1x128x96 : Shape := ⟨3, ![1, 128, 96]⟩
abbrev S128x96 : Shape := ⟨2, ![128, 96]⟩
abbrev S1x96 : Shape := ⟨2, ![1, 96]⟩
abbrev S96 : Shape := ⟨1, ![96]⟩
abbrev S1x50000x96 : Shape := ⟨3, ![1, 50000, 96]⟩
abbrev S4x50000x96 : Shape := ⟨3, ![4, 50000, 96]⟩

abbrev nBuf : Space → Nat
  | .hbm => 126
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x32, .f32⟩
  | .hbm, ⟨2, _⟩ => ⟨S2x800000, .i32⟩
  | .hbm, ⟨3, _⟩ => ⟨S800000, .i32⟩
  | .hbm, ⟨4, _⟩ => ⟨S4x128x96, .f32⟩
  | .hbm, ⟨5, _⟩ => ⟨S4x96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x32, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x32, .f32⟩
  | .hbm, ⟨28, _⟩ => ⟨S800000x32, .f32⟩
  | .hbm, ⟨29, _⟩ => ⟨S800000x32, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S800000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S800000, .f32⟩
  | .hbm, ⟨44, _⟩ => ⟨S800000x1, .f32⟩
  | .hbm, ⟨45, _⟩ => ⟨S1x128x96, .f32⟩
  | .hbm, ⟨46, _⟩ => ⟨S128x96, .f32⟩
  | .hbm, ⟨47, _⟩ => ⟨S800000x96, .f32⟩
  | .hbm, ⟨48, _⟩ => ⟨S1x96, .f32⟩
  | .hbm, ⟨49, _⟩ => ⟨S96, .f32⟩
  | .hbm, ⟨50, _⟩ => ⟨S1x96, .f32⟩
  | .hbm, ⟨51, _⟩ => ⟨S800000x96, .f32⟩
  | .hbm, ⟨52, _⟩ => ⟨S800000x96, .f32⟩
  | .hbm, ⟨53, _⟩ => ⟨S800000x96, .f32⟩
  | .hbm, ⟨54, _⟩ => ⟨S800000x96, .f32⟩
  | .hbm, ⟨55, _⟩ => ⟨S_, .f32⟩
  | .hbm, ⟨56, _⟩ => ⟨S50000x96, .f32⟩
  | .hbm, ⟨57, _⟩ => ⟨S800000x1, .i32⟩
  | .hbm, ⟨58, _⟩ => ⟨S50000x96, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S800000, .f32⟩
  | .hbm, ⟨63, _⟩ => ⟨S800000x1, .f32⟩
  | .hbm, ⟨64, _⟩ => ⟨S1x128x96, .f32⟩
  | .hbm, ⟨65, _⟩ => ⟨S128x96, .f32⟩
  | .hbm, ⟨66, _⟩ => ⟨S800000x96, .f32⟩
  | .hbm, ⟨67, _⟩ => ⟨S1x96, .f32⟩
  | .hbm, ⟨68, _⟩ => ⟨S96, .f32⟩
  | .hbm, ⟨69, _⟩ => ⟨S1x96, .f32⟩
  | .hbm, ⟨70, _⟩ => ⟨S800000x96, .f32⟩
  | .hbm, ⟨71, _⟩ => ⟨S800000x96, .f32⟩
  | .hbm, ⟨72, _⟩ => ⟨S800000x96, .f32⟩
  | .hbm, ⟨73, _⟩ => ⟨S800000x96, .f32⟩
  | .hbm, ⟨74, _⟩ => ⟨S_, .f32⟩
  | .hbm, ⟨75, _⟩ => ⟨S50000x96, .f32⟩
  | .hbm, ⟨76, _⟩ => ⟨S800000x1, .i32⟩
  | .hbm, ⟨77, _⟩ => ⟨S50000x96, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S800000, .f32⟩
  | .hbm, ⟨82, _⟩ => ⟨S800000x1, .f32⟩
  | .hbm, ⟨83, _⟩ => ⟨S1x128x96, .f32⟩
  | .hbm, ⟨84, _⟩ => ⟨S128x96, .f32⟩
  | .hbm, ⟨85, _⟩ => ⟨S800000x96, .f32⟩
  | .hbm, ⟨86, _⟩ => ⟨S1x96, .f32⟩
  | .hbm, ⟨87, _⟩ => ⟨S96, .f32⟩
  | .hbm, ⟨88, _⟩ => ⟨S1x96, .f32⟩
  | .hbm, ⟨89, _⟩ => ⟨S800000x96, .f32⟩
  | .hbm, ⟨90, _⟩ => ⟨S800000x96, .f32⟩
  | .hbm, ⟨91, _⟩ => ⟨S800000x96, .f32⟩
  | .hbm, ⟨92, _⟩ => ⟨S800000x96, .f32⟩
  | .hbm, ⟨93, _⟩ => ⟨S_, .f32⟩
  | .hbm, ⟨94, _⟩ => ⟨S50000x96, .f32⟩
  | .hbm, ⟨95, _⟩ => ⟨S800000x1, .i32⟩
  | .hbm, ⟨96, _⟩ => ⟨S50000x96, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S800000, .f32⟩
  | .hbm, ⟨101, _⟩ => ⟨S800000x1, .f32⟩
  | .hbm, ⟨102, _⟩ => ⟨S1x128x96, .f32⟩
  | .hbm, ⟨103, _⟩ => ⟨S128x96, .f32⟩
  | .hbm, ⟨104, _⟩ => ⟨S800000x96, .f32⟩
  | .hbm, ⟨105, _⟩ => ⟨S1x96, .f32⟩
  | .hbm, ⟨106, _⟩ => ⟨S96, .f32⟩
  | .hbm, ⟨107, _⟩ => ⟨S1x96, .f32⟩
  | .hbm, ⟨108, _⟩ => ⟨S800000x96, .f32⟩
  | .hbm, ⟨109, _⟩ => ⟨S800000x96, .f32⟩
  | .hbm, ⟨110, _⟩ => ⟨S800000x96, .f32⟩
  | .hbm, ⟨111, _⟩ => ⟨S800000x96, .f32⟩
  | .hbm, ⟨112, _⟩ => ⟨S_, .f32⟩
  | .hbm, ⟨113, _⟩ => ⟨S50000x96, .f32⟩
  | .hbm, ⟨114, _⟩ => ⟨S800000x1, .i32⟩
  | .hbm, ⟨115, _⟩ => ⟨S50000x96, .f32⟩
  | .hbm, ⟨116, _⟩ => ⟨S1x50000x96, .f32⟩
  | .hbm, ⟨117, _⟩ => ⟨S1x50000x96, .f32⟩
  | .hbm, ⟨118, _⟩ => ⟨S1x50000x96, .f32⟩
  | .hbm, ⟨119, _⟩ => ⟨S1x50000x96, .f32⟩
  | .hbm, ⟨120, _⟩ => ⟨S4x50000x96, .f32⟩
  | .hbm, ⟨121, _⟩ => ⟨S_, .f32⟩
  | .hbm, ⟨122, _⟩ => ⟨S50000x96, .f32⟩
  | .hbm, ⟨123, _⟩ => ⟨S_, .f32⟩
  | .hbm, ⟨124, _⟩ => ⟨S50000x96, .f32⟩
  | .hbm, ⟨125, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_11 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_12 : Ref sig .tc := ⟨.hbm, 121, rfl⟩
abbrev main_v101 : Ref sig .tc := ⟨.hbm, 122, rfl⟩
abbrev main_cst_13 : Ref sig .tc := ⟨.hbm, 123, rfl⟩
abbrev main_v102 : Ref sig .tc := ⟨.hbm, 124, rfl⟩
abbrev main_v103 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x96_S800000x32_S800000x128_d1 : Shape.Concatenates [S800000x96, S800000x32] S800000x128 1
  slices_S4x128x96_S1x128x96_0_0_0 : S4x128x96.Slices ![0, 0, 0] S1x128x96
  shapeCasts_S1x128x96_S128x96 : S1x128x96.ShapeCasts S128x96
  slices_S4x96_S1x96_0_0 : S4x96.Slices ![0, 0] S1x96
  shapeCasts_S1x96_S96 : S1x96.ShapeCasts S96
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  slices_S4x128x96_S1x128x96_1_0_0 : S4x128x96.Slices ![1, 0, 0] S1x128x96
  slices_S4x96_S1x96_1_0 : S4x96.Slices ![1, 0] S1x96
  slices_S4x128x96_S1x128x96_2_0_0 : S4x128x96.Slices ![2, 0, 0] S1x128x96
  slices_S4x96_S1x96_2_0 : S4x96.Slices ![2, 0] S1x96
  slices_S4x128x96_S1x128x96_3_0_0 : S4x128x96.Slices ![3, 0, 0] S1x128x96
  slices_S4x96_S1x96_3_0 : S4x96.Slices ![3, 0] S1x96
  bcast_S50000x96_S1x50000x96_1_2 : S50000x96.BroadcastsInDim S1x50000x96 (![1, 2] : Fin 2 → Fin S1x50000x96.rank)
  concatenates_S1x50000x96_S1x50000x96_S1x50000x96_S1x50000x96_S4x50000x96_d0 : Shape.Concatenates [S1x50000x96, S1x50000x96, S1x50000x96, S1x50000x96] S4x50000x96 0
  reducesTo_S4x50000x96_S50000x96_d0 : S4x50000x96.ReducesTo [0] S50000x96
  h_S_ : 0 < S_.numel
  gather_S50000x32_S800000x1_S800000x32_1_0_n_n_0_1_132_wf : GatherDims.WF S50000x32 S800000x1 S800000x32 [1] [0] [] [0] [] 1 ![1, 32]
  gather_S50000x96_S800000x1_S800000x96_1_0_n_n_0_1_196_wf : GatherDims.WF S50000x96 S800000x1 S800000x96 [1] [0] [] [0] [] 1 ![1, 96]
  dot_S800000x128_S128x96_S800000x96_1_0_0_1_n_n_wf : DotDims.WF S800000x128 S128x96 S800000x96 [1] [0] [0] [1] [] []
  scatter_S50000x96_S800000x1_S800000x96_1_0_0_1_wf : ScatterDims.WF S50000x96 S800000x1 S800000x96 [1] [0] [0] 1

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x128_S128x96_S800000x96_1_0_0_1_n_n : DotDims S800000x128 S128x96 S800000x96 where
  lhsContracting := [1]
  rhsContracting := [0]
  lhsNonContracting := [0]
  rhsNonContracting := [1]
  lhsBatch := []
  rhsBatch := []
  wf := dot_S800000x128_S128x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.KernelRun.lean ====
/-
  The kernel program's run with its result named: every weakly fair execution terminates with the result array at
  what the lines after the grid compute from the message array, and the six arguments unchanged.
-/
import proofs.«125978_j82308753260705_2_alg».proof.Proof.Gen.KernelIdeal.Frame

noncomputable section

open Idealize.ShloMosaic Idealize.ShloMosaic.TcCoe Idealize.SL.Sem

namespace Cert.KernelIdeal.KernelRun

open Cert.KernelIdeal Cert.KernelIdeal.Gen

variable {F : FTy → Type} [FloatOps F]
variable (m : (ℓ : Loc nD τ sig) → Buf (Elt F) ℓ) (ρ : Dev nD → PrngReg)

/-- What the result array holds after the run. -/
abbrev result (c : Dev nD) : Buf (Elt F) ((c.tc : Thread nD τ).loc main_v48) :=
  Pipeline.afterTail₀ cfgs (dats m) 0 (V0 m) [hostOps1] c main_v48

/-- The frame run read at the result and at the arguments. -/
theorem run : θ_run defs (onTc (τ := τ) (main (F := F))) ⟨m, fun _ => 0, ρ⟩ (fun r => ∀ c : Dev nD,
      r.2.mem ((c.tc : Thread nD τ).loc main_v48) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v48 (Pipeline.mem_restRefs_of main_v48 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelRun

end
-- ==== Proof.LibPadPlain.lean ====
/-
  A host pad with no low padding and no interior padding (only high padding), read at an index: where every
  coordinate is inside the operand's extents it is the operand at the same coordinates; where some coordinate is at or
  beyond the operand's extent on its axis it is the padding value.  For any rank and any element type.
-/
import Idealize.ShloMosaic.Lib.KernelVsHost

noncomputable section

namespace Cert.LibPadPlain

open Idealize.ShloMosaic

variable {s t : Shape} {α : Type}

/-- Inside the operand on every axis: the operand at the same coordinates. -/
theorem pad_inside (lo hi interior : Fin s.rank → Nat) (hlo : ∀ a, lo a = 0) (hint : ∀ a, interior a = 0)
    (x : s.Idx → α) {u : Shape} (v : u.Idx → α) (h : s.Pads lo hi interior t) (hu : 0 < u.numel) (j : t.Idx) (k : s.Idx)
    (hk : ∀ a : Fin s.rank, (j (a.cast h.1)).val = (k a).val) :
    pad t lo hi interior x v h hu j = x k :=
  pad_apply_of_inside lo hi interior x v h hu j k (fun a => by
    rw [hk a, hlo a, hint a, Nat.zero_add, Nat.zero_add, Nat.mul_one])

/-- At or beyond the operand's extent on axis a: the padding value. -/
theorem pad_outside (lo hi interior : Fin s.rank → Nat) (hlo : ∀ a, lo a = 0) (hint : ∀ a, interior a = 0)
    (x : s.Idx → α) {u : Shape} (v : u.Idx → α) (h : s.Pads lo hi interior t) (hu : 0 < u.numel) (j : t.Idx) (a : Fin s.rank)
    (ha : s.size a ≤ (j (a.cast h.1)).val) :
    pad t lo hi interior x v h hu j = v (Shape.Idx.first hu) :=
  pad_apply_of_not_inside lo hi interior x v h hu j a (by
    rw [hlo a, hint a, Nat.sub_zero, Nat.zero_add, Nat.div_one]
    exact fun h3 => absurd h3.2.2 (Nat.not_lt.mpr ha))

end Cert.LibPadPlain

end
-- ==== Proof.LibWindowSet.lean ====
/-
  A scatter whose body returns the update, with ONE scatter index equal to zero, read at an index.

  Writing a block into the leading corner of an array (x.at[:, :, :C'].set(u)) lowers to a
  "stablehlo.scatter" whose body returns the update element, whose scatter indices have shape [1] and whose
  every update axis is a window axis: the one start index names the last operand axis, and on the other
  axes the window starts at 0. When that index is zero the window starts at 0 on every axis, so update
  element j lands on the operand element with the SAME coordinates. Distinct update elements land on
  distinct operand elements, so the order in which the updates are taken does not matter: the result at an
  index whose last coordinate is below C' is the update there, and at any other index the operand.

  The scatter is a left fold, over the update indices in row-major order, of steps that overwrite at most
  one element each. The general fact about such a fold (over any duplicate-free list, when distinct members
  overwrite distinct elements): read at i, it is the value written by the member that overwrites i, and the
  starting value at i when no member does.

  Two patterns: operand [A, B, C] with updates [A, B, C'], and operand [A, C] with updates [A, C'].
-/
import Idealize.ShloMosaic.Lib.ValueIdx

noncomputable section

namespace Cert.LibWindowSet

open Idealize.ShloMosaic Idealize.ShloMosaic.ValueIdx

/-! ## A left fold of overwriting steps, read at an index -/

section Fold
variable {ι κ α : Type} [DecidableEq ι]

/-- A fold of overwriting steps read at `i'`, when no member of the list overwrites `i'`: the starting value.
    (`g k` is the element member `k` overwrites, if any, and `v k` the value it writes.) -/
theorem foldl_miss (g : κ → Option ι) (v : κ → α) (step : (ι → α) → κ → ι → α)
    (hsome : ∀ r k i, g k = some i → ∀ i', step r k i' = if i' = i then v k else r i')
    (hnone : ∀ r k, g k = none → step r k = r) (i' : ι) :
    ∀ (L : List κ) (x : ι → α), (∀ k ∈ L, g k ≠ some i') → L.foldl step x i' = x i'
  | [], _, _ => rfl
  | k :: L, x, h => by
    rw [List.foldl_cons, foldl_miss g v step hsome hnone i' L (step x k)
      (fun k' hk' => h k' (List.mem_cons_of_mem _ hk'))]
    have hk := h k List.mem_cons_self
    cases hgk : g k with
    | none => rw [hnone x k hgk]
    | some i =>
      rw [hsome x k i hgk i', if_neg]
      intro hi; exact hk (by rw [hgk, hi])

/-- A fold of overwriting steps over a duplicate-free list whose distinct members overwrite distinct elements,
    read at `i'`, when member `k` overwrites `i'`: the value `k` writes. -/
theorem foldl_hit (g : κ → Option ι) (v : κ → α) (step : (ι → α) → κ → ι → α)
    (hsome : ∀ r k i, g k = some i → ∀ i', step r k i' = if i' = i then v k else r i')
    (hnone : ∀ r k, g k = none → step r k = r)
    (hinj : ∀ k₁ k₂ i, g k₁ = some i → g k₂ = some i → k₁ = k₂) (i' : ι) (k : κ) (hk : g k = some i') :
    ∀ (L : List κ) (x : ι → α), L.Nodup → k ∈ L → L.foldl step x i' = v k
  | [], _, _, hmem => absurd hmem List.not_mem_nil
  | k0 :: L, x, hnd, hmem => by
    rw [List.foldl_cons]
    rcases List.mem_cons.mp hmem with rfl | hin
    · rw [foldl_miss g v step hsome hnone i' L (step x k), hsome x k i' hk i', if_pos rfl]
      intro k' hk' hgk'
      have := hinj k' k i' hgk' hk
      subst this
      exact (List.nodup_cons.mp hnd).1 hk'
    · exact foldl_hit g v step hsome hnone hinj i' k hk L (step x k0) (List.nodup_cons.mp hnd).2 hin

end Fold

/-! ## Rank 3: operand `[A, B, C]`, one scatter index, updates `[A, B, C']` -/

/-- The dimension numbers of a write into the leading corner of a rank-3 array: every update axis a window axis,
    none inserted, the one start index naming the last operand axis. -/
abbrev dims3 (A B C C' : Nat)
    (wf : ScatterDims.WF ⟨3, ![A, B, C]⟩ ⟨1, ![1]⟩ ⟨3, ![A, B, C']⟩ [0, 1, 2] [] [2] 0) :
    ScatterDims ⟨3, ![A, B, C]⟩ ⟨1, ![1]⟩ ⟨3, ![A, B, C']⟩ where
  updateWindowDims := [0, 1, 2]
  insertedWindowDims := []
  scatterDimsToOperandDims := [2]
  indexVectorDim := 0
  wf := wf

section Rank3
variable {A B C C' w : Nat}
  (wf : ScatterDims.WF ⟨3, ![A, B, C]⟩ ⟨1, ![1]⟩ ⟨3, ![A, B, C']⟩ [0, 1, 2] [] [2] 0)

/-- With the scatter index zero, the window starts at `0` on every axis: on the last axis the index, read signed,
    is `0`; the other axes no index names. -/
theorem d3_start (idx : IVec ⟨1, ![1]⟩ w) (hidx : ∀ k, idx k = 0#w)
    (j : (⟨3, ![A, B, C']⟩ : Shape).Idx) (a : Fin 3) :
    (dims3 A B C C' wf).start j idx a = 0 := by
  unfold ScatterDims.start
  split_ifs with h
  · rw [hidx]; exact BitVec.toInt_zero
  · rfl

/-- Every operand axis is kept, in order, so the window coordinate on axis `a` is the update's coordinate on `a`. -/
theorem d3_window (j : (⟨3, ![A, B, C']⟩ : Shape).Idx) (a : Fin 3) :
    (dims3 A B C C' wf).window j a = (j a).val := by
  unfold ScatterDims.window
  have h : a ∈ (dims3 A B C C' wf).sKept := List.mem_filter.mpr ⟨List.mem_finRange _, by simp⟩
  rw [dif_pos h]
  match a with
  | ⟨0, _⟩ => rfl
  | ⟨1, _⟩ => rfl
  | ⟨2, _⟩ => rfl

/-- Update element `j` lands on operand element `i` exactly when the two have the same coordinates. -/
theorem d3_resultIdx?_eq_some (idx : IVec ⟨1, ![1]⟩ w) (hidx : ∀ k, idx k = 0#w)
    (j : (⟨3, ![A, B, C']⟩ : Shape).Idx) (i : (⟨3, ![A, B, C]⟩ : Shape).Idx) :
    (dims3 A B C C' wf).resultIdx? j idx = some i ↔ ∀ a : Fin 3, (i a).val = (j a).val := by
  unfold ScatterDims.resultIdx?
  split_ifs with h
  · rw [Option.some.injEq]
    constructor
    · intro hEq a
      have hv := congrArg (fun (k : (⟨3, ![A, B, C]⟩ : Shape).Idx) => (k a).val) hEq
      change ((dims3 A B C C' wf).start j idx a + ((dims3 A B C C' wf).window j a : ℕ)).toNat = (i a).val at hv
      rw [d3_start wf idx hidx, d3_window] at hv
      omega
    · intro hEq
      funext a
      refine Fin.ext ?_
      show ((dims3 A B C C' wf).start j idx a + ((dims3 A B C C' wf).window j a : ℕ)).toNat = (i a).val
      rw [d3_start wf idx hidx, d3_window, hEq a]
      omega
  · constructor
    · intro hEq; exact absurd hEq (by simp)
    · intro hEq
      exfalso; apply h
      intro a
      rw [d3_start wf idx hidx, d3_window, ← hEq a]
      have := (i a).isLt
      omega

end Rank3

section Rank3Main
variable {A B C C' w : Nat} {α : Type}
  (wf : ScatterDims.WF ⟨3, ![A, B, C]⟩ ⟨1, ![1]⟩ ⟨3, ![A, B, C']⟩ [0, 1, 2] [] [2] 0)

/-- Distinct update elements land on distinct operand elements. -/
theorem d3_inj (idx : IVec ⟨1, ![1]⟩ w) (hidx : ∀ k, idx k = 0#w)
    (k₁ k₂ : Fin (⟨3, ![A, B, C']⟩ : Shape).numel) (i₀ : (⟨3, ![A, B, C]⟩ : Shape).Idx)
    (h₁ : (dims3 A B C C' wf).resultIdx? ((⟨3, ![A, B, C']⟩ : Shape).rowMajor.symm k₁) idx = some i₀)
    (h₂ : (dims3 A B C C' wf).resultIdx? ((⟨3, ![A, B, C']⟩ : Shape).rowMajor.symm k₂) idx = some i₀) :
    k₁ = k₂ := by
  rw [d3_resultIdx?_eq_some wf idx hidx] at h₁ h₂
  apply (⟨3, ![A, B, C']⟩ : Shape).rowMajor.symm.injective
  funext a
  exact Fin.ext ((h₁ a).symm.trans (h₂ a))

/-- The scatter read at `i`, when update element `j` has `i`'s coordinates: the update at `j`. -/
theorem scatter_set3_hit (x : (⟨3, ![A, B, C]⟩ : Shape).Idx → α) (idx : IVec ⟨1, ![1]⟩ w)
    (hidx : ∀ k, idx k = 0#w) (upd : (⟨3, ![A, B, C']⟩ : Shape).Idx → α)
    (i : (⟨3, ![A, B, C]⟩ : Shape).Idx) (j : (⟨3, ![A, B, C']⟩ : Shape).Idx)
    (hj : ∀ a : Fin 3, (i a).val = (j a).val) :
    Host.scatter (dims3 A B C C' wf) (fun _ v => v) x idx upd i = upd j := by
  unfold Host.scatter
  rw [show upd j = upd ((⟨3, ![A, B, C']⟩ : Shape).rowMajor.symm ((⟨3, ![A, B, C']⟩ : Shape).rowMajor j)) by
    rw [Equiv.symm_apply_apply]]
  refine foldl_hit (fun k => (dims3 A B C C' wf).resultIdx? ((⟨3, ![A, B, C']⟩ : Shape).rowMajor.symm k) idx)
    (fun k => upd ((⟨3, ![A, B, C']⟩ : Shape).rowMajor.symm k)) _ ?_ ?_ (d3_inj wf idx hidx) i
    ((⟨3, ![A, B, C']⟩ : Shape).rowMajor j) ?_ (List.finRange _) x (List.nodup_finRange _) (List.mem_finRange _)
  · intro r k i₀ h i'
    dsimp only at h ⊢
    rw [h]
  · intro r k h
    dsimp only at h ⊢
    rw [h]
  · rw [Equiv.symm_apply_apply]
    exact (d3_resultIdx?_eq_some wf idx hidx j i).mpr hj

/-- The scatter read at `i`, when no update element has `i`'s coordinates: the operand at `i`. -/
theorem scatter_set3_miss (x : (⟨3, ![A, B, C]⟩ : Shape).Idx → α) (idx : IVec ⟨1, ![1]⟩ w)
    (hidx : ∀ k, idx k = 0#w) (upd : (⟨3, ![A, B, C']⟩ : Shape).Idx → α)
    (i : (⟨3, ![A, B, C]⟩ : Shape).Idx)
    (hj : ∀ j : (⟨3, ![A, B, C']⟩ : Shape).Idx, ¬ ∀ a : Fin 3, (i a).val = (j a).val) :
    Host.scatter (dims3 A B C C' wf) (fun _ v => v) x idx upd i = x i := by
  unfold Host.scatter
  refine foldl_miss (fun k => (dims3 A B C C' wf).resultIdx? ((⟨3, ![A, B, C']⟩ : Shape).rowMajor.symm k) idx)
    (fun k => upd ((⟨3, ![A, B, C']⟩ : Shape).rowMajor.symm k)) _ ?_ ?_ i (List.finRange _) x ?_
  · intro r k i₀ h i'
    dsimp only at h ⊢
    rw [h]
  · intro r k h
    dsimp only at h ⊢
    rw [h]
  · intro k _ hk
    exact hj _ ((d3_resultIdx?_eq_some wf idx hidx _ i).mp hk)

/-- THE RANK-3 CORNER WRITE READ INSIDE THE CORNER (last coordinate below `C'`): the update there. -/
theorem scatter_set3_apply (x : (⟨3, ![A, B, C]⟩ : Shape).Idx → α) (idx : IVec ⟨1, ![1]⟩ w)
    (hidx : ∀ k, idx k = 0#w) (upd : (⟨3, ![A, B, C']⟩ : Shape).Idx → α)
    (a : Fin A) (b : Fin B) (c : Fin C) (hc : c.val < C') :
    Host.scatter (dims3 A B C C' wf) (fun _ v => v) x idx upd (ix3 a b c) = upd (ix3 a b ⟨c.val, hc⟩) := by
  refine scatter_set3_hit wf x idx hidx upd (ix3 a b c) (ix3 a b ⟨c.val, hc⟩) ?_
  intro d
  match d with
  | ⟨0, _⟩ => rfl
  | ⟨1, _⟩ => rfl
  | ⟨2, _⟩ => rfl

/-- The rank-3 corner write read outside the corner (last coordinate at least `C'`): the operand there. -/
theorem scatter_set3_apply_out (x : (⟨3, ![A, B, C]⟩ : Shape).Idx → α) (idx : IVec ⟨1, ![1]⟩ w)
    (hidx : ∀ k, idx k = 0#w) (upd : (⟨3, ![A, B, C']⟩ : Shape).Idx → α)
    (a : Fin A) (b : Fin B) (c : Fin C) (hc : C' ≤ c.val) :
    Host.scatter (dims3 A B C C' wf) (fun _ v => v) x idx upd (ix3 a b c) = x (ix3 a b c) := by
  refine scatter_set3_miss wf x idx hidx upd (ix3 a b c) ?_
  intro j hj
  have h2 : c.val = (j 2).val := hj 2
  have : (j 2).val < C' := (j 2).isLt
  omega

end Rank3Main

/-! ## Rank 2: operand `[A, C]`, one scatter index, updates `[A, C']` -/

/-- The dimension numbers of a write into the leading corner of a rank-2 array: both update axes window axes,
    none inserted, the one start index naming the last operand axis. -/
abbrev dims2 (A C C' : Nat)
    (wf : ScatterDims.WF ⟨2, ![A, C]⟩ ⟨1, ![1]⟩ ⟨2, ![A, C']⟩ [0, 1] [] [1] 0) :
    ScatterDims ⟨2, ![A, C]⟩ ⟨1, ![1]⟩ ⟨2, ![A, C']⟩ where
  updateWindowDims := [0, 1]
  insertedWindowDims := []
  scatterDimsToOperandDims := [1]
  indexVectorDim := 0
  wf := wf

section Rank2
variable {A C C' w : Nat} {α : Type}
  (wf : ScatterDims.WF ⟨2, ![A, C]⟩ ⟨1, ![1]⟩ ⟨2, ![A, C']⟩ [0, 1] [] [1] 0)

/-- With the scatter index zero, the window starts at `0` on both axes. -/
theorem d2_start (idx : IVec ⟨1, ![1]⟩ w) (hidx : ∀ k, idx k = 0#w)
    (j : (⟨2, ![A, C']⟩ : Shape).Idx) (a : Fin 2) :
    (dims2 A C C' wf).start j idx a = 0 := by
  unfold ScatterDims.start
  split_ifs with h
  · rw [hidx]; exact BitVec.toInt_zero
  · rfl

/-- Both operand axes are kept, in order, so the window coordinate on axis `a` is the update's coordinate on `a`. -/
theorem d2_window (j : (⟨2, ![A, C']⟩ : Shape).Idx) (a : Fin 2) :
    (dims2 A C C' wf).window j a = (j a).val := by
  unfold ScatterDims.window
  have h : a ∈ (dims2 A C C' wf).sKept := List.mem_filter.mpr ⟨List.mem_finRange _, by simp⟩
  rw [dif_pos h]
  match a with
  | ⟨0, _⟩ => rfl
  | ⟨1, _⟩ => rfl

/-- Update element `j` lands on operand element `i` exactly when the two have the same coordinates. -/
theorem d2_resultIdx?_eq_some (idx : IVec ⟨1, ![1]⟩ w) (hidx : ∀ k, idx k = 0#w)
    (j : (⟨2, ![A, C']⟩ : Shape).Idx) (i : (⟨2, ![A, C]⟩ : Shape).Idx) :
    (dims2 A C C' wf).resultIdx? j idx = some i ↔ ∀ a : Fin 2, (i a).val = (j a).val := by
  unfold ScatterDims.resultIdx?
  split_ifs with h
  · rw [Option.some.injEq]
    constructor
    · intro hEq a
      have hv := congrArg (fun (k : (⟨2, ![A, C]⟩ : Shape).Idx) => (k a).val) hEq
      change ((dims2 A C C' wf).start j idx a + ((dims2 A C C' wf).window j a : ℕ)).toNat = (i a).val at hv
      rw [d2_start wf idx hidx, d2_window] at hv
      omega
    · intro hEq
      funext a
      refine Fin.ext ?_
      show ((dims2 A C C' wf).start j idx a + ((dims2 A C C' wf).window j a : ℕ)).toNat = (i a).val
      rw [d2_start wf idx hidx, d2_window, hEq a]
      omega
  · constructor
    · intro hEq; exact absurd hEq (by simp)
    · intro hEq
      exfalso; apply h
      intro a
      rw [d2_start wf idx hidx, d2_window, ← hEq a]
      have := (i a).isLt
      omega

/-- Distinct update elements land on distinct operand elements. -/
theorem d2_inj (idx : IVec ⟨1, ![1]⟩ w) (hidx : ∀ k, idx k = 0#w)
    (k₁ k₂ : Fin (⟨2, ![A, C']⟩ : Shape).numel) (i₀ : (⟨2, ![A, C]⟩ : Shape).Idx)
    (h₁ : (dims2 A C C' wf).resultIdx? ((⟨2, ![A, C']⟩ : Shape).rowMajor.symm k₁) idx = some i₀)
    (h₂ : (dims2 A C C' wf).resultIdx? ((⟨2, ![A, C']⟩ : Shape).rowMajor.symm k₂) idx = some i₀) :
    k₁ = k₂ := by
  rw [d2_resultIdx?_eq_some wf idx hidx] at h₁ h₂
  apply (⟨2, ![A, C']⟩ : Shape).rowMajor.symm.injective
  funext a
  exact Fin.ext ((h₁ a).symm.trans (h₂ a))

/-- The scatter read at `i`, when update element `j` has `i`'s coordinates: the update at `j`. -/
theorem scatter_set2_hit (x : (⟨2, ![A, C]⟩ : Shape).Idx → α) (idx : IVec ⟨1, ![1]⟩ w)
    (hidx : ∀ k, idx k = 0#w) (upd : (⟨2, ![A, C']⟩ : Shape).Idx → α)
    (i : (⟨2, ![A, C]⟩ : Shape).Idx) (j : (⟨2, ![A, C']⟩ : Shape).Idx)
    (hj : ∀ a : Fin 2, (i a).val = (j a).val) :
    Host.scatter (dims2 A C C' wf) (fun _ v => v) x idx upd i = upd j := by
  unfold Host.scatter
  rw [show upd j = upd ((⟨2, ![A, C']⟩ : Shape).rowMajor.symm ((⟨2, ![A, C']⟩ : Shape).rowMajor j)) by
    rw [Equiv.symm_apply_apply]]
  refine foldl_hit (fun k => (dims2 A C C' wf).resultIdx? ((⟨2, ![A, C']⟩ : Shape).rowMajor.symm k) idx)
    (fun k => upd ((⟨2, ![A, C']⟩ : Shape).rowMajor.symm k)) _ ?_ ?_ (d2_inj wf idx hidx) i
    ((⟨2, ![A, C']⟩ : Shape).rowMajor j) ?_ (List.finRange _) x (List.nodup_finRange _) (List.mem_finRange _)
  · intro r k i₀ h i'
    dsimp only at h ⊢
    rw [h]
  · intro r k h
    dsimp only at h ⊢
    rw [h]
  · rw [Equiv.symm_apply_apply]
    exact (d2_resultIdx?_eq_some wf idx hidx j i).mpr hj

/-- The scatter read at `i`, when no update element has `i`'s coordinates: the operand at `i`. -/
theorem scatter_set2_miss (x : (⟨2, ![A, C]⟩ : Shape).Idx → α) (idx : IVec ⟨1, ![1]⟩ w)
    (hidx : ∀ k, idx k = 0#w) (upd : (⟨2, ![A, C']⟩ : Shape).Idx → α)
    (i : (⟨2, ![A, C]⟩ : Shape).Idx)
    (hj : ∀ j : (⟨2, ![A, C']⟩ : Shape).Idx, ¬ ∀ a : Fin 2, (i a).val = (j a).val) :
    Host.scatter (dims2 A C C' wf) (fun _ v => v) x idx upd i = x i := by
  unfold Host.scatter
  refine foldl_miss (fun k => (dims2 A C C' wf).resultIdx? ((⟨2, ![A, C']⟩ : Shape).rowMajor.symm k) idx)
    (fun k => upd ((⟨2, ![A, C']⟩ : Shape).rowMajor.symm k)) _ ?_ ?_ i (List.finRange _) x ?_
  · intro r k i₀ h i'
    dsimp only at h ⊢
    rw [h]
  · intro r k h
    dsimp only at h ⊢
    rw [h]
  · intro k _ hk
    exact hj _ ((d2_resultIdx?_eq_some wf idx hidx _ i).mp hk)

/-- THE RANK-2 CORNER WRITE READ INSIDE THE CORNER (last coordinate below `C'`): the update there. -/
theorem scatter_set2_apply (x : (⟨2, ![A, C]⟩ : Shape).Idx → α) (idx : IVec ⟨1, ![1]⟩ w)
    (hidx : ∀ k, idx k = 0#w) (upd : (⟨2, ![A, C']⟩ : Shape).Idx → α)
    (a : Fin A) (c : Fin C) (hc : c.val < C') :
    Host.scatter (dims2 A C C' wf) (fun _ v => v) x idx upd (ix2 a c) = upd (ix2 a ⟨c.val, hc⟩) := by
  refine scatter_set2_hit wf x idx hidx upd (ix2 a c) (ix2 a ⟨c.val, hc⟩) ?_
  intro d
  match d with
  | ⟨0, _⟩ => rfl
  | ⟨1, _⟩ => rfl

/-- The rank-2 corner write read outside the corner (last coordinate at least `C'`): the operand there. -/
theorem scatter_set2_apply_out (x : (⟨2, ![A, C]⟩ : Shape).Idx → α) (idx : IVec ⟨1, ![1]⟩ w)
    (hidx : ∀ k, idx k = 0#w) (upd : (⟨2, ![A, C']⟩ : Shape).Idx → α)
    (a : Fin A) (c : Fin C) (hc : C' ≤ c.val) :
    Host.scatter (dims2 A C C' wf) (fun _ v => v) x idx upd (ix2 a c) = x (ix2 a c) := by
  refine scatter_set2_miss wf x idx hidx upd (ix2 a c) ?_
  intro j hj
  have h1 : c.val = (j 1).val := hj 1
  have : (j 1).val < C' := (j 1).isLt
  omega

end Rank2

end Cert.LibWindowSet

end
-- ==== Proof.LibSlab.lean ====
/-
  A stack of T matrices [T, K, C] laid side by side as one [K, T·C] slab, read at coordinates.

  The stack is first transposed by the permutation [1, 0, 2] to [K, T, C] — at (k, t, c) the operand at (t, k, c) —
  and then recast to [K, T·C], which keeps the row-major order: column t·C + c of row k is entry (k, t, c). So the slab
  at (k, t·C + c) is matrix t of the stack at (k, c).
-/
import Idealize.ShloMosaic.Lib.ValueIdx
import Idealize.ShloMosaic.Lib.Pipeline.Value

noncomputable section

namespace Cert.LibSlab

open Idealize.ShloMosaic Idealize.ShloMosaic.ValueIdx

variable {α : Type}

/-- [T, K, C] transposed by [1, 0, 2] to [K, T, C], at (k, t, c): the operand at (t, k, c). -/
theorem transpose_102_apply {T K C : ℕ} (x : (⟨3, ![T, K, C]⟩ : Shape).Idx → α)
    (h : (⟨3, ![T, K, C]⟩ : Shape).Transposes [1, 0, 2] ⟨3, ![K, T, C]⟩) (k : Fin K) (t : Fin T) (c : Fin C) :
    transpose ⟨3, ![K, T, C]⟩ [1, 0, 2] x h (ix3 k t c) = x (ix3 t k c) :=
  transpose_apply _ x h _ _ fun b => match b with | ⟨0, _⟩ => rfl | ⟨1, _⟩ => rfl | ⟨2, _⟩ => rfl

/-- [K, T, C] recast as [K, J] with J = T·C, at (k, j) where j = t·C + c: the operand at (k, t, c). -/
theorem cast_ktc_kj_apply {K T C J : ℕ} (x : (⟨3, ![K, T, C]⟩ : Shape).Idx → α)
    (h : (⟨3, ![K, T, C]⟩ : Shape).ShapeCasts ⟨2, ![K, J]⟩) (hJ : J = T * C) (k : Fin K) (t : Fin T) (c : Fin C) (j : Fin J)
    (hj : j.val = t.val * C + c.val) :
    shapeCast ⟨2, ![K, J]⟩ x h (ix2 k j) = x (ix3 k t c) := by
  refine shapeCast_apply x h _ _ ?_
  rw [Shape.rowMajor_val_two, Shape.rowMajor_val_three]
  show (k.val * T + t.val) * C + c.val = k.val * J + j.val
  rw [hj, hJ]; ring

/-- The slab of a stack: at (k, t·C + c) it is the stack at (t, k, c). -/
theorem slab_apply {T K C J : ℕ} (x : (⟨3, ![T, K, C]⟩ : Shape).Idx → α)
    (h1 : (⟨3, ![T, K, C]⟩ : Shape).Transposes [1, 0, 2] ⟨3, ![K, T, C]⟩)
    (h2 : (⟨3, ![K, T, C]⟩ : Shape).ShapeCasts ⟨2, ![K, J]⟩) (hJ : J = T * C) (k : Fin K) (t : Fin T) (c : Fin C) (j : Fin J)
    (hj : j.val = t.val * C + c.val) :
    shapeCast ⟨2, ![K, J]⟩ (transpose ⟨3, ![K, T, C]⟩ [1, 0, 2] x h1) h2 (ix2 k j) = x (ix3 t k c) :=
  (cast_ktc_kj_apply _ h2 hJ k t c j hj).trans (transpose_102_apply x h1 k t c)

end Cert.LibSlab

end
-- ==== Proof.HostIn.lean ====
/-
  What the grid finds in its five input arrays, as the program's lines before the grid compute them from the
  arguments: the node rows gathered at the (wrapped) source words, the absolute differences of the edge-feature rows
  gathered at source and destination, the relation words as a column, the four weight matrices widened to 128 columns
  and laid side by side, and the four bias rows widened to 128 columns. Changes of float format are the identity over
  the extended reals, and the pads add no row or column.
-/
import proofs.«125978_j82308753260705_2_alg».proof.Proof.Gen.KernelIdeal.Frame
import proofs.«125978_j82308753260705_2_alg».proof.Proof.LibPadPlain
import proofs.«125978_j82308753260705_2_alg».proof.Proof.LibWindowSet
import proofs.«125978_j82308753260705_2_alg».proof.Proof.LibSlab
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.Tactic Idealize.ShloMosaic.StableHlo
open Idealize.ShloMosaic.ValueIdx

namespace Cert.KernelIdeal.HostIn

open Cert.KernelIdeal Cert.KernelIdeal.Gen

/-- Row r of the edge list as a vector of words. -/
def edgeRow (off : Fin 2 → Nat) (h : S2x800000.Slices off S1x800000) (x2 : IVec S2x800000 32) : IVec S800000 32 :=
  shapeCast S800000 (extractStridedSlice S1x800000 off x2 h) shapeCasts_S1x800000_S800000

/-- A negative word wrapped by the number of nodes. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of words as a one-column matrix. -/
def col (v : IVec S800000 32) : IVec S800000x1 32 := broadcastInDim S800000x1 ![0] bcast_S800000_S800000x1_0 v

/-- The node rows gathered at the source words. -/
def xsK (x0 : FVec Ideal S50000x96 .f32) (x2 : IVec S2x800000 32) : FVec Ideal S800000x96 .f32 :=
  Host.gather gather_S50000x96_S800000x1_S800000x96_1_0_n_n_0_1_196 x0 (col (wrap (edgeRow ![0, 0] slices_S2x800000_S1x800000_0_0 x2)))

/-- The absolute differences of the edge-feature rows gathered at source and destination. -/
def efK (x1 : FVec Ideal S50000x32 .f32) (x2 : IVec S2x800000 32) : FVec Ideal S800000x32 .f32 :=
  Host.absf (subf
    (Host.gather gather_S50000x32_S800000x1_S800000x32_1_0_n_n_0_1_132 x1 (col (wrap (edgeRow ![0, 0] slices_S2x800000_S1x800000_0_0 x2))))
    (Host.gather gather_S50000x32_S800000x1_S800000x32_1_0_n_n_0_1_132 x1 (col (wrap (edgeRow ![1, 0] slices_S2x800000_S1x800000_1_0 x2)))))

variable (m : (ℓ : Loc nD τ sig) → Buf (Elt Ideal) ℓ)

set_option maxHeartbeats 4000000 in
/-- Input array 0: the gathered node rows, recast and padded by nothing. -/
theorem V30_eq (c : Dev nD) : (V m c main_v30 : S800000x96.Idx → EReal)
    = pad S800000x96 ![0, 0] ![0, 0] ![0, 0] (truncf .bf16 (xsK (m (c, Proc.tc.devRef main_arg0)) (m (c, Proc.tc.devRef main_arg2))) bitsLt_bf16_f32)
        (sitofp (F := Ideal) .bf16 (constantI S_ 32 0#32)) pads_S800000x96_S800000x96_000_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Input array 0 at (e, k): the gathered node row e at column k. -/
theorem V30_apply (c : Dev nD) (i : S800000x96.Idx) :
    (V m c main_v30 : S800000x96.Idx → EReal) i = xsK (m (c, Proc.tc.devRef main_arg0)) (m (c, Proc.tc.devRef main_arg2)) i := by
  rw [V30_eq]
  exact Cert.LibPadPlain.pad_inside ![0, 0] ![0, 0] ![0, 0] (fun a => by fin_cases a <;> rfl) (fun a => by fin_cases a <;> rfl)
    _ _ pads_S800000x96_S800000x96_000_000 h_S_ i i (fun _ => rfl)

set_option maxHeartbeats 4000000 in
/-- Input array 1: the edge-feature differences, recast and padded by nothing. -/
theorem V31_eq (c : Dev nD) : (V m c main_v31 : S800000x32.Idx → EReal)
    = pad S800000x32 ![0, 0] ![0, 0] ![0, 0] (truncf .bf16 (efK (m (c, Proc.tc.devRef main_arg1)) (m (c, Proc.tc.devRef main_arg2))) bitsLt_bf16_f32)
        (sitofp (F := Ideal) .bf16 (constantI S_ 32 0#32)) pads_S800000x32_S800000x32_000_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Input array 1 at (e, k): the edge-feature difference of edge e at column k. -/
theorem V31_apply (c : Dev nD) (i : S800000x32.Idx) :
    (V m c main_v31 : S800000x32.Idx → EReal) i = efK (m (c, Proc.tc.devRef main_arg1)) (m (c, Proc.tc.devRef main_arg2)) i := by
  rw [V31_eq]
  exact Cert.LibPadPlain.pad_inside ![0, 0] ![0, 0] ![0, 0] (fun a => by fin_cases a <;> rfl) (fun a => by fin_cases a <;> rfl)
    _ _ pads_S800000x32_S800000x32_000_000 h_S_ i i (fun _ => rfl)

set_option maxHeartbeats 4000000 in
/-- Input array 2: the relation words as a column, padded by nothing. -/
theorem V32_eq (c : Dev nD) : (V m c main_v32 : S800000x1.Idx → BitVec 32)
    = pad S800000x1 ![0, 0] ![0, 0] ![0, 0] (shapeCast S800000x1 (m (c, Proc.tc.devRef main_arg3)) shapeCasts_S800000_S800000x1)
        (constantI S_ 32 4294967295#32) pads_S800000x1_S800000x1_000_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Input array 2 at (e, 0): edge e's relation word. -/
theorem V32_apply (c : Dev nD) (e : Fin 800000) (z : Fin 1) :
    (V m c main_v32 : S800000x1.Idx → BitVec 32) (ix2 e z) = (m (c, Proc.tc.devRef main_arg3) : S800000.Idx → BitVec 32) (ix1 e) := by
  rw [V32_eq]
  refine (Cert.LibPadPlain.pad_inside ![0, 0] ![0, 0] ![0, 0] (fun a => by fin_cases a <;> rfl) (fun a => by fin_cases a <;> rfl)
    _ _ pads_S800000x1_S800000x1_000_000 h_S_ (ix2 e z) (ix2 e z) (fun _ => rfl)).trans ?_
  refine shapeCast_apply _ shapeCasts_S800000_S800000x1 _ _ ?_
  rw [Shape.rowMajor_val_one, Shape.rowMajor_val_two]
  show e.val = e.val * 1 + z.val
  have := z.isLt
  omega

set_option maxHeartbeats 4000000 in
/-- The destination words the lines after the grid use: row 1 of the edge list, padded by nothing. -/
theorem V33_eq (c : Dev nD) : (V m c main_v33 : S800000.Idx → BitVec 32)
    = pad S800000 ![0] ![0] ![0] (edgeRow ![1, 0] slices_S2x800000_S1x800000_1_0 (m (c, Proc.tc.devRef main_arg2)))
        (constantI S_ 32 0#32) pads_S800000_S800000_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- … at e: edge e's destination word. -/
theorem V33_apply (c : Dev nD) (i : S800000.Idx) :
    (V m c main_v33 : S800000.Idx → BitVec 32) i = edgeRow ![1, 0] slices_S2x800000_S1x800000_1_0 (m (c, Proc.tc.devRef main_arg2)) i := by
  rw [V33_eq]
  exact Cert.LibPadPlain.pad_inside ![0] ![0] ![0] (fun a => by fin_cases a; rfl) (fun a => by fin_cases a; rfl)
    _ _ pads_S800000_S800000_000 h_S_ i i (fun _ => rfl)

set_option maxHeartbeats 4000000 in
/-- Input array 3: the weight slab. -/
theorem V39_eq (c : Dev nD) : (V m c main_v39 : S128x512.Idx → EReal)
    = truncf .bf16 (shapeCast S128x512 (transpose S128x4x128 [1, 0, 2]
        (Host.scatter scatter_S4x128x128_S1_S4x128x96_012_n_2_0 (fun _ b => b)
          (broadcastInDim S4x128x128 ![] bcast_S_S4x128x128 (constant (F := Ideal) S_ .f32 0x00000000#32))
          (broadcastInDim S1 ![] bcast_S_S1 (constantI S_ 32 0#32)) (m (c, Proc.tc.devRef main_arg4)))
        transposes_S4x128x128_S128x4x128_1_0_2) shapeCasts_S128x4x128_S128x512) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The weight slab at row k and column 128·t + f, f < 96: relation t's weight at (k, f). -/
theorem V39_apply (c : Dev nD) (k : Fin 128) (t : Fin 4) (f : Fin 96) (j : Fin 512) (hj : j.val = t.val * 128 + f.val) :
    (V m c main_v39 : S128x512.Idx → EReal) (ix2 k j) = (m (c, Proc.tc.devRef main_arg4) : S4x128x96.Idx → EReal) (ix3 t k f) := by
  rw [V39_eq, truncf_apply]
  have hf := f.isLt
  refine (Cert.LibSlab.slab_apply _ transposes_S4x128x128_S128x4x128_1_0_2 shapeCasts_S128x4x128_S128x512 (by norm_num) k t
    (⟨f.val, by omega⟩ : Fin 128) j hj).trans ?_
  exact Cert.LibWindowSet.scatter_set3_apply scatter_S4x128x128_S1_S4x128x96_012_n_2_0_wf _ _ (fun _ => rfl) _ t k
    (⟨f.val, by omega⟩ : Fin 128) hf

set_option maxHeartbeats 4000000 in
/-- Input array 4: the bias rows widened to 128 columns. -/
theorem V42_eq (c : Dev nD) : (V m c main_v42 : S4x128.Idx → EReal)
    = Host.scatter scatter_S4x128_S1_S4x96_01_n_1_0 (fun _ b => b)
        (broadcastInDim S4x128 ![] bcast_S_S4x128 (constant (F := Ideal) S_ .f32 0x00000000#32))
        (broadcastInDim S1 ![] bcast_S_S1 (constantI S_ 32 0#32)) (m (c, Proc.tc.devRef main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp

/-- The widened bias rows at (t, f), f < 96: relation t's bias at f. -/
theorem V42_apply (c : Dev nD) (t : Fin 4) (f : Fin 96) :
    (V m c main_v42 : S4x128.Idx → EReal) (ix2 t (⟨f.val, by have := f.isLt; omega⟩ : Fin 128))
      = (m (c, Proc.tc.devRef main_arg5) : S4x96.Idx → EReal) (ix2 t f) := by
  rw [V42_eq]
  exact Cert.LibWindowSet.scatter_set2_apply scatter_S4x128_S1_S4x96_01_n_1_0_wf _ _ (fun _ => rfl) _ t
    (⟨f.val, by have := f.isLt; omega⟩ : Fin 128) f.isLt

end Cert.KernelIdeal.HostIn

end
-- ==== Proof.BodyValue.lean ====
import proofs.«125978_j82308753260705_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

/-
  What one grid step of the kernel leaves in its output tile, as a pure function of the step's five input tiles.

  The step first assembles a feature tile in a scratch buffer — columns 0..95 from the gathered node rows, columns
  96..127 from the edge-feature rows — reads it back whole, multiplies it by the 128 x 512 weight slab, and then for
  each of the four relations adds (product columns of that relation + the relation's bias row) times the relation's
  0/1 mask to a running total started from zero; columns 0..95 of the total are stored.
-/
namespace Cert.KernelIdeal.BodyValue

open Cert.KernelIdeal Cert.KernelIdeal.Gen

variable {F : FTy → Type} [FloatOps F]

theorem hz : (![0, 0] : Fin 2 → Nat) = fun _ => 0 := funext fun a => by fin_cases a <;> rfl

/-- The feature tile as the two stores leave it in the scratch buffer: the later store (edge features, columns from
    96) over the earlier one (node rows, columns from 0). -/
def featPieces (x0 : Vec F S3200x96 .bf16) (x1 : Vec F S3200x32 .bf16) : List (View.Piece (Elt F) S3200x128 .bf16) :=
  [⟨Rect.unit ![0, 96] S3200x32.size inb_S3200x128_S3200x32_0_96, k0_pay3 x1⟩,
    ⟨Rect.unit ![0, 0] S3200x96.size inb_S3200x128_S3200x96_0_0, k0_pay2 x0⟩]

/-- The feature tile read back whole. -/
def feat (x0 : Vec F S3200x96 .bf16) (x1 : Vec F S3200x32 .bf16) : Vec F S3200x128 .bf16 :=
  fun j => View.canon (featPieces x0 x1) ((Rect.unit ![0, 0] S3200x128.size inb_S3200x128_S3200x128_0_0).toLoadRect.idx j)

/-- Read back through the whole rectangle, the tile is what the two stores left. -/
theorem feat_eq (x0 : Vec F S3200x96 .bf16) (x1 : Vec F S3200x32 .bf16) : feat x0 x1 = View.canon (featPieces x0 x1) :=
  View.ld_unit_zero hz _ (View.canon (featPieces x0 x1))

/-- Row t of the bias tile, as the step loads it. -/
def brow (x4 : Vec F S4x128 .f32) (off : Fin 2 → Nat) (inb : ∀ a, off a + S1x128.size a ≤ S4x128.size a) : Vec F S1x128 .f32 :=
  View.ld x4 (Rect.unit off S1x128.size inb)

/-- The step's stored tile as one pure term of its input tiles. -/
def body (x0 : Vec F S3200x96 .bf16) (x1 : Vec F S3200x32 .bf16) (x2 : Vec F S3200x1 .i32) (x3 : Vec F S128x512 .bf16)
    (x4 : Vec F S4x128 .f32) : Vec F S3200x96 .f32 :=
  k0_pay1 (k0_pay4 x2) (k0_pay5 (feat x0 x1) x3)
    (k0_pay6 (feat x0 x1) x2 x3 (brow x4 ![0, 0] inb_S4x128_S1x128_0_0))
    (k0_pay7 (feat x0 x1) x3) (k0_pay8 (brow x4 ![1, 0] inb_S4x128_S1x128_1_0)) (k0_pay9 x2)
    (brow x4 ![2, 0] inb_S4x128_S1x128_2_0) (brow x4 ![3, 0] inb_S4x128_S1x128_3_0)

/-- The tile the run finds in the output's staging buffer is that term. -/
theorem out_eq (c : Dev nD) (i : grid0.Coords) (arg1 : Memref sig .tc .vmem S3200x96 .bf16) (harg1 : arg1.IsWhole) (arg2 : Memref sig .tc .vmem S3200x32 .bf16) (harg2 : arg2.IsWhole) (arg3 : Memref sig .tc .vmem S3200x1 .i32) (harg3 : arg3.IsWhole) (arg4 : Memref sig .tc .vmem S128x512 .bf16) (harg4 : arg4.IsWhole) (arg5 : Memref sig .tc .vmem S4x128 .f32) (harg5 : arg5.IsWhole) (arg6 : Memref sig .tc .vmem S3200x96 .f32) (harg6 : arg6.IsWhole) (arg7 : Memref sig .tc .vmem S3200x128 .bf16) (harg7 : arg7.IsWhole)
    (x0 : Vec F S3200x96 .bf16) (x1 : Vec F S3200x32 .bf16) (x2 : Vec F S3200x1 .i32) (x3 : Vec F S128x512 .bf16) (x4 : Vec F S4x128 .f32) :
    out0_A_5 c i arg1 harg1 arg2 harg2 arg3 harg3 arg4 harg4 arg5 harg5 arg6 harg6 arg7 harg7 x0 x1 x2 x3 x4 = body x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S3200x96) hz, View.ld_unit_zero (S := S3200x32) hz, View.ld_unit_zero (S := S3200x1) hz,
    View.ld_unit_zero (S := S128x512) hz, View.readCov_eq_canon']
  rfl

end Cert.KernelIdeal.BodyValue
end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.LibUnitLoads.lean ====
/-
  A load through a unit-stride rectangle read at an index.

  The rectangle takes `size a` consecutive coordinates from `off a` on every axis, so the element the load puts at the
  local index `y` is the contents' element at `off + y`, axis by axis. Stated with the target index as a variable and
  its coordinates as a hypothesis, so that a caller names the index by its coordinates and discharges one equation
  per axis.
-/
import Idealize.ShloMosaic.Lib.Pipeline.Value

noncomputable section

namespace Cert.LibUnitLoads

open Idealize.ShloMosaic

variable {Val : EltTy → Type} {S : Shape} {e : EltTy}

/-- The load at `y` is the contents at the index whose every coordinate is the offset plus `y`'s. -/
theorem ld_unit_apply (X : S.Idx → Val e) (off size : Fin S.rank → ℕ) (inb : ∀ a, off a + size a ≤ S.size a)
    (y : (Rect.unit off size inb).shape.Idx) (k : S.Idx) (hk : ∀ a, (k a).val = off a + (y a).val) :
    View.ld X (Rect.unit off size inb) y = X k :=
  congrArg X (funext fun a => Fin.ext (by
    rw [hk a]
    show off a + 1 * (y a).val = off a + (y a).val
    rw [Nat.one_mul]))

end Cert.LibUnitLoads

end
-- ==== Proof.BodyAt.lean ====
/-
  One grid step's output tile read at a row r and a column f < 96, over the extended reals:

      (((0 + (P(r, f) + b(0, f)) · k₀(r)) + (P(r, 128 + f) + b(1, f)) · k₁(r))
            + (P(r, 256 + f) + b(2, f)) · k₂(r)) + (P(r, 384 + f) + b(3, f)) · k₃(r)

  where P(r, j) = Σ_k feat(r, k) · w(k, j) is the product of the assembled feature tile with the weight slab, b the
  bias tile, and k_t(r) the 0/1 value of "the row's relation word equals t" (the 1-bit comparison widened to 32 bits
  and read as a signed integer). The feature tile is the node rows in columns 0..95 and the edge-feature rows in
  columns 96..127.
-/
import proofs.«125978_j82308753260705_2_alg».proof.Proof.BodyValue
import proofs.«125978_j82308753260705_2_alg».proof.Proof.LibColumnBlocks
import proofs.«125978_j82308753260705_2_alg».proof.Proof.LibRowOps
import proofs.«125978_j82308753260705_2_alg».proof.Proof.LibUnitLoads
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx

namespace Cert.KernelIdeal.BodyAt

open Cert.KernelIdeal Cert.KernelIdeal.Gen Cert.KernelIdeal.BodyValue

/-- Row r of a feature tile against column j of a weight slab. -/
def mm (ft : Vec Ideal S3200x128 .bf16) (w : Vec Ideal S128x512 .bf16) (r : Fin 3200) (j : Fin 512) : EReal :=
  ∑ k : Fin 128, ft (ix2 r k) * w (ix2 k j)

/-- The 0/1 value of "the word equals t": the 1-bit comparison widened to 32 bits, read signed. -/
def bit (x t : BitVec 32) : EReal := ((((IntOp.cmpi .eq x t).setWidth 32).toInt : ℝ) : EReal)

/-- The product tile at (r, j). -/
theorem prod_at (ft : Vec Ideal S3200x128 .bf16) (w : Vec Ideal S128x512 .bf16) (r : Fin 3200) (j : Fin 512) :
    k0_pay5 (F := Ideal) ft w (ix2 r j) = mm ft w r j := by
  unfold k0_pay5
  rw [shapeCast_self]
  exact Cert.LibColumnBlocks.matmul_zero_apply dot_S3200x128_S128x512_S3200x512_1_0_0_1_n_n rfl rfl rfl rfl
    (fun _ _ => rfl) (fun _ _ => rfl) ft w r j none

/-- A 128-column band of the product tile, at (r, j): the product tile at column off + j. -/
theorem band_at (X : S3200x512.Idx → EReal) (off : Nat) (h : S3200x512.Slices ![0, off] S3200x128) (hoff : off + 128 ≤ 512)
    (r : Fin 3200) (j : Fin 128) :
    extractStridedSlice S3200x128 ![0, off] X h (ix2 r j) = X (ix2 r ⟨off + j.val, by have := j.isLt; omega⟩) :=
  extractStridedSlice_apply _ X h _ _ fun a => by
    match a with
    | ⟨0, _⟩ => show r.val = 0 + r.val; omega
    | ⟨1, _⟩ => rfl

/-- A bias row recast to a vector and back, then stretched over the rows, at (r, j): the row's entry j. -/
theorem biasrow_at (row : Vec Ideal S1x128 .f32) (h1 : S1x128.ShapeCasts S128) (h2 : S128.ShapeCasts S1x128)
    (h3 : S1x128.Broadcasts S3200x128) (r : Fin 3200) (j : Fin 128) :
    broadcastTo S3200x128 (shapeCast S1x128 (shapeCast S128 row h1) h2) h3 (ix2 r j) = row (ix2 0 j) := by
  rw [shapeCast_shapeCast]
  exact Cert.LibRowOps.bcast_1b_ab row h3 r j

/-- Row t of the bias tile, loaded, at (0, j): the tile at (t, j). -/
theorem brow_at (x4 : Vec Ideal S4x128 .f32) (t : Nat) (ht : t < 4) (inb : ∀ a, (![t, 0] : Fin 2 → Nat) a + S1x128.size a ≤ S4x128.size a)
    (j : Fin 128) : brow x4 ![t, 0] inb (ix2 0 j) = x4 (ix2 ⟨t, ht⟩ j) :=
  Cert.LibUnitLoads.ld_unit_apply x4 ![t, 0] S1x128.size inb (ix2 0 j) (ix2 ⟨t, ht⟩ j) fun a => by
    match a with
    | ⟨0, _⟩ => show t = t + 0; omega
    | ⟨1, _⟩ => show j.val = 0 + j.val; omega

/-- The relation mask column stretched over the columns, at (r, j): the 0/1 value of row r's word. -/
theorem mask_at (v : IVec S3200x1 32) (t : BitVec 32) (h : 1 < 32) (h3 : S3200x1.Broadcasts S3200x128) (r : Fin 3200) (j : Fin 128) :
    broadcastTo S3200x128 (sitofp (F := Ideal) .f32 (extui 32 (cmpi .eq v (broadcast S3200x1 t)) h)) h3 (ix2 r j)
      = bit (v (ix2 r 0)) t :=
  Cert.LibRowOps.bcast_a1_ab _ h3 r j

/-- THE TILE AT (r, f), f < 96. -/
theorem body_apply (x0 : Vec Ideal S3200x96 .bf16) (x1 : Vec Ideal S3200x32 .bf16) (x2 : Vec Ideal S3200x1 .i32)
    (x3 : Vec Ideal S128x512 .bf16) (x4 : Vec Ideal S4x128 .f32) (r : Fin 3200) (f : Fin 96) :
    body (F := Ideal) x0 x1 x2 x3 x4 (ix2 r f)
      = (((Ideal.ofBits .f32 0x00000000#32
            + (mm (feat x0 x1) x3 r ⟨0 + f.val, by have := f.isLt; omega⟩ + x4 (ix2 0 ⟨f.val, by have := f.isLt; omega⟩)) * bit (x2 (ix2 r 0)) 0#32)
          + (mm (feat x0 x1) x3 r ⟨128 + f.val, by have := f.isLt; omega⟩ + x4 (ix2 1 ⟨f.val, by have := f.isLt; omega⟩)) * bit (x2 (ix2 r 0)) 1#32)
        + (mm (feat x0 x1) x3 r ⟨256 + f.val, by have := f.isLt; omega⟩ + x4 (ix2 2 ⟨f.val, by have := f.isLt; omega⟩)) * bit (x2 (ix2 r 0)) 2#32)
      + (mm (feat x0 x1) x3 r ⟨384 + f.val, by have := f.isLt; omega⟩ + x4 (ix2 3 ⟨f.val, by have := f.isLt; omega⟩)) * bit (x2 (ix2 r 0)) 3#32 := by
  have hf := f.isLt
  unfold body k0_pay1 k0_pay6 k0_pay7 k0_pay8 k0_pay9 k0_pay4
  refine (extractStridedSlice_apply _ _ _ _ (ix2 r (⟨f.val, by omega⟩ : Fin 128)) (fun a => by
    match a with
    | ⟨0, _⟩ => show r.val = 0 + r.val; omega
    | ⟨1, _⟩ => show f.val = 0 + f.val; omega)).trans ?_
  simp only [addf_apply, mulf_apply, broadcast_apply, shapeCast_self]
  rw [band_at _ 0 _ (by norm_num), band_at _ 128 _ (by norm_num), band_at _ 256 _ (by norm_num), band_at _ 384 _ (by norm_num),
    prod_at, prod_at, prod_at, prod_at, biasrow_at, biasrow_at, biasrow_at, biasrow_at,
    brow_at x4 0 (by norm_num), brow_at x4 1 (by norm_num), brow_at x4 2 (by norm_num), brow_at x4 3 (by norm_num),
    mask_at, mask_at, mask_at, mask_at]
  rfl

end Cert.KernelIdeal.BodyAt

end
-- ==== Proof.FeatAt.lean ====
import Idealize.ShloMosaic.Lib.Pipeline.Value
import Idealize.ShloMosaic.Lib.Tactic
import Idealize.ShloMosaic.Lib.ValueIdx
import proofs.«125978_j82308753260705_2_alg».proof.Proof.BodyValue

set_option maxRecDepth 16384

noncomputable section

open Idealize.ShloMosaic Idealize.ShloMosaic.TcCoe Idealize.SL.Sem Idealize.ShloMosaic.Tactic
open Idealize.ShloMosaic.Pipeline (Dat)

/-
  The assembled feature tile read at a row and a column: columns 0..95 are the node-row tile, columns 96..127 the
  edge-feature tile (the later store lies wholly to the right of the earlier one, so neither overwrites the other).
-/
namespace Cert.KernelIdeal.FeatAt

open Cert.KernelIdeal Cert.KernelIdeal.Gen Cert.KernelIdeal.BodyValue Idealize.ShloMosaic.ValueIdx

variable {F : FTy → Type} [FloatOps F]

/-- A column left of 96 holds the node-row tile's entry. -/
theorem feat_left (x0 : Vec F S3200x96 .bf16) (x1 : Vec F S3200x32 .bf16) (r : Fin 3200) (k : Fin 128) (hk : k.val < 96) :
    feat x0 x1 (ix2 r k) = x0 (ix2 r ⟨k.val, hk⟩) := by
  rw [feat_eq]
  unfold featPieces
  rw [View.canon_cons_of_not_mem _ _ (by
    rw [Rect.mem_set_unit]
    intro h
    have h1 : (![0, 96] : Fin 2 → Nat) 1 ≤ ((ix2 r k : S3200x128.Idx) 1).val := (h 1).1
    have h2 : (96 : Nat) ≤ k.val := h1
    omega)]
  have e : (ix2 r k : S3200x128.Idx) = (Rect.unit (s := S3200x128) ![0, 0] S3200x96.size inb_S3200x128_S3200x96_0_0).emb (ix2 r ⟨k.val, hk⟩) :=
    funext fun a => Fin.ext (by
      match a with
      | ⟨0, _⟩ => show r.val = 0 + 1 * r.val; omega
      | ⟨1, _⟩ => show k.val = 0 + 1 * k.val; omega)
  rw [e, View.canon_cons_emb]
  unfold k0_pay2
  rw [shapeCast_self, shapeCast_self]

/-- A column from 96 on holds the edge-feature tile's entry, 96 columns back. -/
theorem feat_right (x0 : Vec F S3200x96 .bf16) (x1 : Vec F S3200x32 .bf16) (r : Fin 3200) (k : Fin 128) (hk : 96 ≤ k.val) :
    feat x0 x1 (ix2 r k) = x1 (ix2 r ⟨k.val - 96, by have := k.isLt; omega⟩) := by
  rw [feat_eq]
  unfold featPieces
  have e : (ix2 r k : S3200x128.Idx) = (Rect.unit (s := S3200x128) ![0, 96] S3200x32.size inb_S3200x128_S3200x32_0_96).emb (ix2 r ⟨k.val - 96, by have := k.isLt; omega⟩) :=
    funext fun a => Fin.ext (by
      match a with
      | ⟨0, _⟩ => show r.val = 0 + 1 * r.val; omega
      | ⟨1, _⟩ => show k.val = 96 + 1 * (k.val - 96); omega)
  rw [e, View.canon_cons_emb]
  unfold k0_pay3
  rw [shapeCast_self, shapeCast_self]

end Cert.KernelIdeal.FeatAt
end
-- ==== Proof.Final.lean ====
/-
  From tiles to the message array.

  Grid step t writes its tile to rows 3200·t .. 3200·t + 3199 of the message array, and the 250 steps tile all
  800000 rows; so after the run the array holds, at row e and column f, the tile of step e / 3200 at row e mod 3200.
-/
import proofs.«125978_j82308753260705_2_alg».proof.Proof.BodyValue
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.BodyValue

variable {F : FTy → Type} [FloatOps F]
variable (m : (ℓ : Loc nD τ sig) → Buf (Elt F) ℓ)

/-- The tile grid step t stores: the step's pure term at the step's input tiles. -/
def tile (c : Dev nD) (t : Fin cfg0.N) : Vec F S3200x96 .f32 :=
  body (iblk m c 0 t) (iblk m c 1 t) (iblk m c 2 t) (iblk m c 3 t) (iblk m c 4 t)

/-- What the run finds in the output's staging buffer after step t is that tile. -/
theorem outsAt_eq (c : Dev nD) (t : Fin cfg0.N) : outsAt0 m c t = tile m c t := by
  unfold outsAt0 tile
  exact out_eq c _ _ _ _ _ _ _ _ _ _ _ _ _ _ _ _ _ _ _ _

/-- The step that owns row e. -/
def stepOf (e : Fin 800000) : Fin cfg0.N := ⟨e.val / 3200, by rw [show cfg0.N = 250 from N_0]; have := e.isLt; omega⟩
/-- The row's place inside its step's tile. -/
def rowIn (e : Fin 800000) : Fin 3200 := ⟨e.val % 3200, Nat.mod_lt _ (by norm_num)⟩

/-- The message array: row e, column f is the owning step's tile at (e mod 3200, f). -/
def msg (c : Dev nD) : S800000x96.Idx → Elt F .f32 := fun i => tile m c (stepOf (i 0)) (ix2 (rowIn (i 0)) (i 1))

/-- Step t's block index on the row axis is t, on the column axis 0. -/
theorem idx_facts : ∀ t : Fin cfg0.N, win0_5.index t (0 : Fin 2) = t.val ∧ win0_5.index t (1 : Fin 2) = 0 :=
  (by decide +kernel : ∀ t : Fin grid0.N, _)

/-- What step t writes back is block t of the message array. -/
theorem flushed_eq (c : Dev nD) (t : Fin cfg0.N) :
    (dats m 0 c).flushed 5 t = ((cfg0.win 5).blk t).view.read (Elt F) (msg m c) := by
  show (cfg0.win 5).cut (grid0.coords t) ((dats m 0 c).after 5 t) = _
  rw [after0_5, outsAt_eq]
  obtain ⟨e0, e1⟩ := idx_facts t
  have hN : cfg0.N = 250 := N_0
  have ht := t.isLt
  funext y
  show tile m c t y = msg m c (((cfg0.win 5).blk t).view.emb y)
  have h0 : ((((cfg0.win 5).blk t).view.emb y) 0).val = t.val * 3200 + (y 0).val := by
    show win0_5.index t (0 : Fin 2) * 3200 + 1 * (y 0).val = _
    rw [e0]; omega
  have h1 : ((((cfg0.win 5).blk t).view.emb y) 1).val = (y 1).val := by
    show win0_5.index t (1 : Fin 2) * 96 + 1 * (y 1).val = _
    rw [e1]; omega
  have hy0 : (y 0).val < 3200 := (y 0).isLt
  unfold msg
  have hs : stepOf ((((cfg0.win 5).blk t).view.emb y) 0) = t := Fin.ext (by
    show ((((cfg0.win 5).blk t).view.emb y) 0).val / 3200 = t.val
    rw [h0]; omega)
  have hr : rowIn ((((cfg0.win 5).blk t).view.emb y) 0) = y 0 := Fin.ext (by
    show ((((cfg0.win 5).blk t).view.emb y) 0).val % 3200 = (y 0).val
    rw [h0]; omega)
  rw [hs, hr]
  exact congrArg (tile m c t) (funext fun a => by
    match a with
    | ⟨0, _⟩ => rfl
    | ⟨1, _⟩ => exact Fin.ext h1.symm)

/-- Every row is in its owning step's block. -/
theorem cover (i : S800000x96.Idx) :
    ∃ t : Fin cfg0.N, (cfg0.win 5).flush t = true ∧ i ∈ ((cfg0.win 5).blk t).view.set := by
  refine ⟨stepOf (i 0), flush0_5 _, ?_⟩
  obtain ⟨e0, e1⟩ := idx_facts (stepOf (i 0))
  show i ∈ ((View.whole main_v43).slice (win0_5.rect (stepOf (i 0)))).set
  rw [View.set_slice_whole, Rect.mem_set_unit]
  intro a
  have hi0 : (i 0).val < 800000 := (i 0).isLt
  have hi1 : (i 1).val < 96 := (i 1).isLt
  have hst : (stepOf (i 0)).val = (i 0).val / 3200 := rfl
  match a with
  | ⟨0, _⟩ =>
    show win0_5.index (stepOf (i 0)) (0 : Fin 2) * 3200 ≤ (i 0).val ∧ (i 0).val < win0_5.index (stepOf (i 0)) (0 : Fin 2) * 3200 + 3200
    rw [e0, hst]; omega
  | ⟨1, _⟩ =>
    show win0_5.index (stepOf (i 0)) (1 : Fin 2) * 96 ≤ (i 1).val ∧ (i 1).val < win0_5.index (stepOf (i 0)) (1 : Fin 2) * 96 + 96
    rw [e1]; omega

/-- After the run the message array holds the tiles, step by step. -/
theorem final (c : Dev nD) : (dats m 0 c).arrAt 5 cfg0.N = msg m c :=
  (dats m 0 c).arrAt_eq_of_cover 5 (msg m c) (fun t _ => flushed_eq m c t) (cover)

end Cert.KernelIdeal.Final

end
-- ==== Proof.Blocks.lean ====
/-
  The grid's input tiles read at coordinates: step t's tile of each of the three row-tiled arrays is rows
  3200·t .. 3200·t + 3199 of the array, and its tile of the weight slab and of the bias rows is the whole array.
-/
import proofs.«125978_j82308753260705_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps over the grid: the row-tiled inputs move with the step, the other two stay at block (0, 0). -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Step t's node-row tile at (r, k) is the array at (3200·t + r, k). -/
theorem iblk0_apply (c : Dev nD) (t : Fin cfg0.N) (r : Fin 3200) (k : Fin 96) (e : Fin 800000) (he : e.val = t.val * 3200 + r.val) :
    (iblk m c 0 t : Vec F S3200x96 .bf16) (ix2 r k) = (V m c main_v30 : S800000x96.Idx → Elt F .bf16) (ix2 e k) := by
  obtain ⟨e0, e1, -⟩ := idx_in t
  unfold iblk
  rw [View.read_apply]
  show V m c main_v30 _ = V m c main_v30 _
  congr 1
  funext a
  apply Fin.ext
  match a with
  | ⟨0, _⟩ => show win0_0.index t (0 : Fin 2) * 3200 + 1 * r.val = e.val; rw [e0, he]; omega
  | ⟨1, _⟩ => show win0_0.index t (1 : Fin 2) * 96 + 1 * k.val = k.val; rw [e1]; omega

/-- Step t's edge-feature tile at (r, k) is the array at (3200·t + r, k). -/
theorem iblk1_apply (c : Dev nD) (t : Fin cfg0.N) (r : Fin 3200) (k : Fin 32) (e : Fin 800000) (he : e.val = t.val * 3200 + r.val) :
    (iblk m c 1 t : Vec F S3200x32 .bf16) (ix2 r k) = (V m c main_v31 : S800000x32.Idx → Elt F .bf16) (ix2 e k) := by
  obtain ⟨-, -, e0, e1, -⟩ := idx_in t
  unfold iblk
  rw [View.read_apply]
  show V m c main_v31 _ = V m c main_v31 _
  congr 1
  funext a
  apply Fin.ext
  match a with
  | ⟨0, _⟩ => show win0_1.index t (0 : Fin 2) * 3200 + 1 * r.val = e.val; rw [e0, he]; omega
  | ⟨1, _⟩ => show win0_1.index t (1 : Fin 2) * 32 + 1 * k.val = k.val; rw [e1]; omega

/-- Step t's relation-word tile at (r, 0) is the column at (3200·t + r, 0). -/
theorem iblk2_apply (c : Dev nD) (t : Fin cfg0.N) (r : Fin 3200) (z : Fin 1) (e : Fin 800000) (he : e.val = t.val * 3200 + r.val) :
    (iblk m c 2 t : Vec F S3200x1 .i32) (ix2 r z) = (V m c main_v32 : S800000x1.Idx → Elt F .i32) (ix2 e z) := by
  obtain ⟨-, -, -, -, e0, e1, -⟩ := idx_in t
  unfold iblk
  rw [View.read_apply]
  show V m c main_v32 _ = V m c main_v32 _
  congr 1
  funext a
  apply Fin.ext
  match a with
  | ⟨0, _⟩ => show win0_2.index t (0 : Fin 2) * 3200 + 1 * r.val = e.val; rw [e0, he]; omega
  | ⟨1, _⟩ => show win0_2.index t (1 : Fin 2) * 1 + 1 * z.val = z.val; rw [e1]; omega

/-- Every step's weight tile is the whole slab. -/
theorem iblk3_apply (c : Dev nD) (t : Fin cfg0.N) (i : S128x512.Idx) :
    (iblk m c 3 t : Vec F S128x512 .bf16) i = (V m c main_v39 : S128x512.Idx → Elt F .bf16) i := by
  obtain ⟨-, -, -, -, -, -, e0, e1, -⟩ := idx_in t
  unfold iblk
  rw [View.read_apply]
  show V m c main_v39 _ = V m c main_v39 _
  congr 1
  funext a
  apply Fin.ext
  match a with
  | ⟨0, _⟩ => show win0_3.index t (0 : Fin 2) * 128 + 1 * (i 0).val = (i 0).val; rw [e0]; omega
  | ⟨1, _⟩ => show win0_3.index t (1 : Fin 2) * 512 + 1 * (i 1).val = (i 1).val; rw [e1]; omega

/-- Every step's bias tile is the whole array. -/
theorem iblk4_apply (c : Dev nD) (t : Fin cfg0.N) (i : S4x128.Idx) :
    (iblk m c 4 t : Vec F S4x128 .f32) i = (V m c main_v42 : S4x128.Idx → Elt F .f32) i := by
  obtain ⟨-, -, -, -, -, -, -, -, e0, e1⟩ := idx_in t
  unfold iblk
  rw [View.read_apply]
  show V m c main_v42 _ = V m c main_v42 _
  congr 1
  funext a
  apply Fin.ext
  match a with
  | ⟨0, _⟩ => show win0_4.index t (0 : Fin 2) * 4 + 1 * (i 0).val = (i 0).val; rw [e0]; omega
  | ⟨1, _⟩ => show win0_4.index t (1 : Fin 2) * 128 + 1 * (i 1).val = (i 1).val; rw [e1]; omega

end Cert.KernelIdeal.Blocks

end
-- ==== Proof.LibScatterRows.lean ====
/-
  A scatter-add with one scatter index per update row, read at an index.

  `segment_sum` of `R` update rows into `N` segments lowers to a `stablehlo.scatter` with an `add`
  body whose scatter indices have shape `[R, 1]`: update row `e` is added to operand row
  `idx[e, 0]`, the index read as a signed integer and NOT clamped, so that an update whose index is
  negative or at least `N` is dropped. At the ideal instance the colliding updates are summed
  exactly, so operand element `i` (or `(i, f)`) becomes itself plus the sum over ALL update rows
  `e` of the update element if `idx[e, 0] = i` and of zero otherwise.

  Two patterns: a vector operand `[N]` with updates `[R]`, and a matrix operand `[N, C]` with
  updates `[R, C]` whose column axis is the one window axis.
-/
import Idealize.ShloMosaic.Lib.ValueIdx

noncomputable section

open scoped BigOperators

namespace Cert.LibScatterRows

open Idealize.ShloMosaic Idealize.ShloMosaic.ValueIdx

/-! ## A sum over a rank-1 index set is the sum over its coordinate -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The vector pattern: operand `[N]`, scatter indices `[R, 1]`, updates `[R]` -/

/-- The dimension numbers of a scatter into a vector: no window axis, the one operand axis inserted. -/
abbrev vecDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The window of update `e` starts at its scatter index `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted one: no window coordinate on it. -/
theorem vec_window (e : Fin R) : (vecDims N R wf).window (ix1 e) (0 : Fin 1) = 0 := by
  unfold ScatterDims.window
  rw [dif_neg]
  intro h
  have : (0 : Fin 1) ∉ [(0 : Fin 1)] := (List.mem_filter.mp h).2 |> fun h' => by simpa using h'
  exact this (List.mem_singleton.mpr rfl)

/-- Update `e` lands on operand element `i` exactly when its scatter index is `i`. -/
theorem vec_resultIdx?_eq_some (idx : IVec ⟨2, ![R, 1]⟩ w) (e : Fin R) (i : Fin N) :
    (vecDims N R wf).resultIdx? (ix1 e) idx = some (ix1 i) ↔ (idx (ix2 e (0 : Fin 1))).toInt = (i.val : ℤ) := by
  unfold ScatterDims.resultIdx?
  have hi : i.val < N := i.isLt
  split_ifs with h
  · rw [Option.some.injEq]
    constructor
    · intro hEq
      have h0 := h 0
      have hv := congrArg (fun (k : (⟨1, ![N]⟩ : Shape).Idx) => (k 0).val) hEq
      simp only [vec_start, vec_window] at h0 hv
      change ((idx (ix2 e (0 : Fin 1))).toInt + ((0 : ℕ) : ℤ)).toNat = i.val at hv
      omega
    · intro hEq
      funext a
      obtain rfl : a = 0 := Subsingleton.elim _ _
      refine Fin.ext ?_
      show ((vecDims N R wf).start (ix1 e) idx 0 + ((vecDims N R wf).window (ix1 e) 0 : ℕ)).toNat = i.val
      rw [vec_start, vec_window, hEq]
      omega
  · constructor
    · intro hEq; exact absurd hEq (by simp)
    · intro hEq
      exfalso; apply h
      intro a
      obtain rfl : a = 0 := Subsingleton.elim _ _
      rw [vec_start, vec_window, hEq]
      show 0 ≤ (i.val : ℤ) + ((0 : ℕ) : ℤ) ∧ (i.val : ℤ) + ((0 : ℕ) : ℤ) < (N : ℤ)
      omega

/-- THE VECTOR SCATTER-ADD READ AT `i`: the operand element plus every update whose scatter index is `i`. -/
theorem scatterAdd_vec_apply {φ : FTy} (x : FVec Ideal ⟨1, ![N]⟩ φ) (idx : IVec ⟨2, ![R, 1]⟩ w)
    (upd : FVec Ideal ⟨1, ![R]⟩ φ) (i : Fin N) :
    Host.scatterAdd (F := Ideal) (vecDims N R wf) x idx upd (ix1 i)
      = x (ix1 i) + ∑ e : Fin R, if (idx (ix2 e (0 : Fin 1))).toInt = (i.val : ℤ) then upd (ix1 e) else 0 := by
  unfold Host.scatterAdd
  rw [Ideal.hostScatterAdd_def]
  unfold Ideal.hostScatterAdd
  refine congrArg (x (ix1 i) + ·) ?_
  rw [Finset.sum_filter, sum_idx1]
  refine Finset.sum_congr rfl fun e _ => ?_
  simp only [vec_resultIdx?_eq_some]

end Vec

/-! ## The row pattern: operand `[N, C]`, scatter indices `[R, 1]`, updates `[R, C]` -/

/-- The dimension numbers of a scatter of whole rows: the column axis is the one window axis, the row axis inserted. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N R C w : Nat} (wf : ScatterDims.WF ⟨2, ![N, C]⟩ ⟨2, ![R, 1]⟩ ⟨2, ![R, C]⟩ [1] [0] [0] 1)

/-- On the row axis the window of update `(e, f')` starts at its scatter index `idx[e, 0]`, read signed … -/
theorem rows_start0 (idx : IVec ⟨2, ![R, 1]⟩ w) (e : Fin R) (f' : Fin C) :
    (rowDims N R C wf).start (ix2 e f') idx (0 : Fin 2) = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e f') ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis, which no scatter index names, at `0`. -/
theorem rows_start1 (idx : IVec ⟨2, ![R, 1]⟩ w) (e : Fin R) (f' : Fin C) :
    (rowDims N R C wf).start (ix2 e f') idx (1 : Fin 2) = 0 := by
  unfold ScatterDims.start
  rw [dif_neg (show ¬ (1 : Fin 2) ∈ [(0 : Fin 2)] from
    fun h => absurd (List.mem_singleton.mp h) (by decide))]

/-- The row axis is an inserted one: no window coordinate on it … -/
theorem rows_window0 (e : Fin R) (f' : Fin C) : (rowDims N R C wf).window (ix2 e f') (0 : Fin 2) = 0 := by
  unfold ScatterDims.window
  rw [dif_neg]
  intro h
  have : (0 : Fin 2) ∉ [(0 : Fin 2)] := (List.mem_filter.mp h).2 |> fun h' => by simpa using h'
  exact this (List.mem_singleton.mpr rfl)

/-- … and on the column axis the window coordinate is the update's column. -/
theorem rows_window1 (e : Fin R) (f' : Fin C) : (rowDims N R C wf).window (ix2 e f') (1 : Fin 2) = f'.val := by
  unfold ScatterDims.window
  have h1 : (1 : Fin 2) ∈ (rowDims N R C wf).sKept :=
    List.mem_filter.mpr ⟨List.mem_finRange _, by simp⟩
  rw [dif_pos h1]
  rfl

/-- Update `(e, f')` lands on operand element `(i, f)` exactly when its scatter index is `i` and its column is `f`. -/
theorem rows_resultIdx?_eq_some (idx : IVec ⟨2, ![R, 1]⟩ w) (e : Fin R) (f' : Fin C) (i : Fin N) (f : Fin C) :
    (rowDims N R C wf).resultIdx? (ix2 e f') idx = some (ix2 i f)
      ↔ (idx (ix2 e (0 : Fin 1))).toInt = (i.val : ℤ) ∧ f' = f := by
  unfold ScatterDims.resultIdx?
  have hi : i.val < N := i.isLt
  have hf : f.val < C := f.isLt
  have hf' : f'.val < C := f'.isLt
  split_ifs with h
  · rw [Option.some.injEq]
    constructor
    · intro hEq
      have h0 := h 0
      have hv0 := congrArg (fun (k : (⟨2, ![N, C]⟩ : Shape).Idx) => (k 0).val) hEq
      have hv1 := congrArg (fun (k : (⟨2, ![N, C]⟩ : Shape).Idx) => (k 1).val) hEq
      simp only [rows_start0, rows_window0] at h0
      change ((rowDims N R C wf).start (ix2 e f') idx 0 + ((rowDims N R C wf).window (ix2 e f') 0 : ℕ)).toNat = i.val at hv0
      change ((rowDims N R C wf).start (ix2 e f') idx 1 + ((rowDims N R C wf).window (ix2 e f') 1 : ℕ)).toNat = f.val at hv1
      rw [rows_start0, rows_window0] at hv0
      rw [rows_start1, rows_window1] at hv1
      refine ⟨by omega, Fin.ext (by omega)⟩
    · rintro ⟨hEq, rfl⟩
      funext a
      refine Fin.ext ?_
      match a with
      | ⟨0, _⟩ =>
        show ((rowDims N R C wf).start (ix2 e f') idx 0 + ((rowDims N R C wf).window (ix2 e f') 0 : ℕ)).toNat = i.val
        rw [rows_start0, rows_window0, hEq]
        omega
      | ⟨1, _⟩ =>
        show ((rowDims N R C wf).start (ix2 e f') idx 1 + ((rowDims N R C wf).window (ix2 e f') 1 : ℕ)).toNat = f'.val
        rw [rows_start1, rows_window1]
        omega
  · constructor
    · intro hEq; exact absurd hEq (by simp)
    · rintro ⟨hEq, rfl⟩
      exfalso; apply h
      intro a
      match a with
      | ⟨0, _⟩ =>
        show 0 ≤ (rowDims N R C wf).start (ix2 e f') idx 0 + ((rowDims N R C wf).window (ix2 e f') 0 : ℕ)
          ∧ (rowDims N R C wf).start (ix2 e f') idx 0 + ((rowDims N R C wf).window (ix2 e f') 0 : ℕ) < (N : ℤ)
        rw [rows_start0, rows_window0, hEq]
        omega
      | ⟨1, _⟩ =>
        show 0 ≤ (rowDims N R C wf).start (ix2 e f') idx 1 + ((rowDims N R C wf).window (ix2 e f') 1 : ℕ)
          ∧ (rowDims N R C wf).start (ix2 e f') idx 1 + ((rowDims N R C wf).window (ix2 e f') 1 : ℕ) < (C : ℤ)
        rw [rows_start1, rows_window1]
        omega

/-- THE ROW SCATTER-ADD READ AT `(i, f)`: the operand element plus column `f` of every update row whose scatter
    index is `i`. -/
theorem scatterAdd_rows_apply {φ : FTy} (x : FVec Ideal ⟨2, ![N, C]⟩ φ) (idx : IVec ⟨2, ![R, 1]⟩ w)
    (upd : FVec Ideal ⟨2, ![R, C]⟩ φ) (i : Fin N) (f : Fin C) :
    Host.scatterAdd (F := Ideal) (rowDims N R C wf) x idx upd (ix2 i f)
      = x (ix2 i f) + ∑ e : Fin R, if (idx (ix2 e (0 : Fin 1))).toInt = (i.val : ℤ) then upd (ix2 e f) else 0 := by
  unfold Host.scatterAdd
  rw [Ideal.hostScatterAdd_def]
  unfold Ideal.hostScatterAdd
  refine congrArg (x (ix2 i f) + ·) ?_
  rw [Finset.sum_filter, sum_idx2]
  refine Finset.sum_congr rfl fun e _ => ?_
  simp only [rows_resultIdx?_eq_some]
  by_cases hP : (idx (ix2 e (0 : Fin 1))).toInt = (i.val : ℤ)
  · simp only [hP, true_and, if_true]
    rw [Finset.sum_ite_eq' Finset.univ f (fun f' => upd (ix2 e f'))]
    simp
  · simp only [hP, false_and, if_false]
    exact Finset.sum_const_zero

end Rows

end Cert.LibScatterRows

end
-- ==== Proof.Tail.lean ====
/-
  The kernel program's result from the message array: the lines after the grid add, for every node n, the message
  rows of the edges whose destination word (read signed) is n to a zero row, and scale the total by the float 0.25.
-/
import proofs.«125978_j82308753260705_2_alg».proof.Proof.Final
import proofs.«125978_j82308753260705_2_alg».proof.Proof.LibScatterRows
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.Tactic Idealize.ShloMosaic.StableHlo
open Idealize.ShloMosaic.ValueIdx
open Idealize.ShloMosaic.Pipeline (Dat)

namespace Cert.KernelIdeal.Tail

open Cert.KernelIdeal Cert.KernelIdeal.Gen

variable (m : (ℓ : Loc nD τ sig) → Buf (Elt Ideal) ℓ)

/-- The result array after the lines that follow the grid, as those lines' operations of the message array and the
    destination words. -/
theorem tail_eq (c : Dev nD) :
    (Pipeline.afterTail₀ cfgs (dats m) 0 (V0 m) [hostOps1] c main_v48 : S50000x96.Idx → EReal)
      = mulf (Host.scatterAdd scatter_S50000x96_S800000x1_S800000x96_1_0_0_1
            (broadcastInDim S50000x96 ![] bcast_S_S50000x96 (constant S_ .f32 0x00000000#32))
            (broadcastInDim S800000x1 ![0] bcast_S800000_S800000x1_0 (V m c main_v33))
            (Final.msg m c))
          (broadcastInDim S50000x96 ![] bcast_S_S50000x96 (constant S_ .f32 0x3E800000#32)) := by
  unfold Pipeline.afterTail₀
  show StableHlo.after hostOps1 _ (Proc.devRef .tc main_v48) = _
  after_results
  rw [Pipeline.withArrays_of_ne _ c (V0 m c) _ main_v33 (by exact (by decide : ∀ w, Pipeline.arrRef spec0 w ≠ main_v33))]
  have h43 : (Pipeline.withArrays (cfgs 0).spec c (V0 m c) (fun w => (dats m 0 c).arrAt w (cfgs 0).N) (Proc.tc.devRef main_v43) : S800000x96.Idx → EReal)
      = Final.msg m c :=
    (Pipeline.withArrays_arr spec0 launch0.win.arr_inj c (V0 m c) (fun w => (dats m 0 c).arrAt w (cfgs 0).N) 5).trans (Final.final m c)
  rw [h43]

end Cert.KernelIdeal.Tail

end
-- ==== Proof.Spec.lean ====
/-
  The layer's result as one function of the per-edge feature rows, the edges' destinations and relation words, the
  relation weights and the relation biases.

  For relation t, edge e and output column f the masked message is

      term t e f = (Σ_k feat(e, k) · W(t, k, f) + b(t, f)) · [relation word of e = t]      (the bracket is 0 or 1),

  and node n's entry in column f is

      out n f = (0 + Σ_t (0 + Σ_{e : destination of e is n} term t e f)) / 4,

  the destination word read as a signed integer, every zero the float +0.0 and the divisor the float 4.0.
-/
import Idealize.ShloMosaic.PureOps.Ideal
import Idealize.ShloMosaic.Lib.ValueIdx

noncomputable section

open scoped BigOperators

namespace Cert.Spec

open Idealize.ShloMosaic Idealize.ShloMosaic.ValueIdx

/-- The masked message of relation t on edge e, column f. -/
def term (ft : (⟨2, ![800000, 128]⟩ : Shape).Idx → EReal) (et : (⟨1, ![800000]⟩ : Shape).Idx → BitVec 32)
    (w : (⟨3, ![4, 128, 96]⟩ : Shape).Idx → EReal) (b : (⟨2, ![4, 96]⟩ : Shape).Idx → EReal)
    (t : Fin 4) (e : Fin 800000) (f : Fin 96) : EReal :=
  ((∑ k : Fin 128, ft (ix2 e k) * w (ix3 t k f)) + b (ix2 t f))
    * (((IntOp.cmpi .eq (et (ix1 e)) (BitVec.ofNat 32 t.val)).toNat : ℝ) : EReal)

/-- Node n's entry in column f. -/
def out (ft : (⟨2, ![800000, 128]⟩ : Shape).Idx → EReal) (dst et : (⟨1, ![800000]⟩ : Shape).Idx → BitVec 32)
    (w : (⟨3, ![4, 128, 96]⟩ : Shape).Idx → EReal) (b : (⟨2, ![4, 96]⟩ : Shape).Idx → EReal)
    (n : Fin 50000) (f : Fin 96) : EReal :=
  Ideal.div
    (Ideal.ofBits .f32 0x00000000#32 + ∑ t : Fin 4, (Ideal.ofBits .f32 0x00000000#32
      + ∑ e : Fin 800000, if (dst (ix1 e)).toInt = (n.val : ℤ) then term ft et w b t e f else 0))
    (Ideal.ofBits .f32 0x40800000#32)

end Cert.Spec

end
-- ==== Proof.SumSwap.lean ====
/-
  The algebra that joins the two arrangements of the layer's sum.

  One side adds, for every edge whose destination is the node, the four relation terms of that edge chained from
  zero, and scales the node's total by the float 0.25; the other side adds, for each relation separately, the terms
  of the edges whose destination is the node (each total started from zero), adds the four totals from zero, and
  divides by the float 4. Addition on the extended reals is commutative and associative, so the two orders of
  summation agree with no finiteness needed; and 0.25 is exactly 1/4, so multiplying by it is dividing by 4 on
  every extended real.
-/
import Idealize.ShloMosaic.PureOps.Ideal

noncomputable section

open scoped BigOperators

namespace Cert.Bridge

open Idealize.ShloMosaic

/-- The float word of +0.0 denotes 0. -/
theorem ofBits_zero : Ideal.ofBits .f32 0x00000000#32 = 0 := by
  simp [Ideal.ofBits, Ideal.ieee]

/-- The float word 0x3E800000 denotes 1/4. -/
theorem ofBits_quarter : Ideal.ofBits .f32 0x3E800000#32 = ((1 / 4 : ℝ) : EReal) := by
  simp [Ideal.ofBits, Ideal.ieee, -EReal.coe_mul]; norm_num

/-- The float word 0x40800000 denotes 4. -/
theorem ofBits_four : Ideal.ofBits .f32 0x40800000#32 = ((4 : ℝ) : EReal) := by
  simp [Ideal.ofBits, Ideal.ieee, -EReal.coe_mul]; norm_num

/-- Scaling by the float 0.25 is dividing by the float 4, on every extended real. -/
theorem mul_quarter (x : EReal) :
    x * Ideal.ofBits .f32 0x3E800000#32 = Ideal.div x (Ideal.ofBits .f32 0x40800000#32) := by
  rw [ofBits_quarter, ofBits_four, Ideal.div_coe (by norm_num : (4 : ℝ) ≠ 0)]

/-- Summing over the selected edges the chain of four terms is summing, relation by relation, the selected edges'
    terms: in any commutative additive monoid. -/
theorem sum_chain_eq_sum_totals {M ι : Type*} [AddCommMonoid M] [Fintype ι] (p : ι → Prop) [DecidablePred p]
    (a : Fin 4 → ι → M) :
    (∑ e, if p e then (((0 + a 0 e) + a 1 e) + a 2 e) + a 3 e else 0)
      = ∑ k : Fin 4, (0 + ∑ e, if p e then a k e else 0) := by
  rw [Fin.sum_univ_four]
  simp only [zero_add]
  rw [← Finset.sum_add_distrib, ← Finset.sum_add_distrib, ← Finset.sum_add_distrib]
  refine Finset.sum_congr rfl fun e _ => ?_
  by_cases h : p e
  · simp only [if_pos h]
  · simp only [if_neg h, add_zero]

end Cert.Bridge

end
-- ==== Proof.KernelAt.lean ====
/-
  The kernel program's result read at a node and a column, in terms of the arguments.

  Edge e belongs to grid step e / 3200, at row e mod 3200 of that step's tiles. Reading the step's tile there and
  the five input arrays where the lines before the grid left them gives: the feature row of e is the gathered node row
  followed by the edge-feature differences; column 128·t + f of the weight slab is relation t's weight column f; the
  widened bias row t at f is relation t's bias at f; and the relation mask is the 0/1 value of "e's relation word is
  t". So the message row of e is the chain, from zero, of the four relations' masked messages, and the lines after the
  grid add the message rows by destination and scale by 0.25 — which is the specification, by the two laws of
  Proof/SumSwap.lean.
-/
import proofs.«125978_j82308753260705_2_alg».proof.Proof.HostIn
import proofs.«125978_j82308753260705_2_alg».proof.Proof.BodyAt
import proofs.«125978_j82308753260705_2_alg».proof.Proof.FeatAt
import proofs.«125978_j82308753260705_2_alg».proof.Proof.Final
import proofs.«125978_j82308753260705_2_alg».proof.Proof.Blocks
import proofs.«125978_j82308753260705_2_alg».proof.Proof.Tail
import proofs.«125978_j82308753260705_2_alg».proof.Proof.Spec
import proofs.«125978_j82308753260705_2_alg».proof.Proof.SumSwap

set_option maxRecDepth 16384

noncomputable section

open Idealize.ShloMosaic Idealize.ShloMosaic.TcCoe Idealize.SL.Sem Idealize.ShloMosaic.ValueIdx
open scoped BigOperators

namespace Cert.KernelIdeal.KernelAt

open Cert.KernelIdeal Cert.KernelIdeal.Gen Cert.KernelIdeal.HostIn Cert.KernelIdeal.BodyValue Cert.KernelIdeal.BodyAt
open Cert.KernelIdeal.FeatAt Cert.KernelIdeal.Final Cert.KernelIdeal.Blocks

/-- The per-edge feature rows as the kernel program builds them: the gathered node row, then the edge-feature
    differences. -/
def ftK (x0 : FVec Ideal S50000x96 .f32) (x1 : FVec Ideal S50000x32 .f32) (x2 : IVec S2x800000 32) :
    (⟨2, ![800000, 128]⟩ : Shape).Idx → EReal := fun i =>
  if h : (i 1).val < 96 then xsK x0 x2 (ix2 (i 0) ⟨(i 1).val, h⟩)
  else efK x1 x2 (ix2 (i 0) ⟨(i 1).val - 96, by have h2 : (i 1).val < 128 := (i 1).isLt; omega⟩)

/-- The destination words: row 1 of the edge list. -/
def dstK (x2 : IVec S2x800000 32) : (⟨1, ![800000]⟩ : Shape).Idx → BitVec 32 :=
  edgeRow ![1, 0] slices_S2x800000_S1x800000_1_0 x2

variable (m : (ℓ : Loc nD τ sig) → Buf (Elt Ideal) ℓ)

/-- The six arguments on core c. -/
abbrev A0 (c : Dev nD) : FVec Ideal S50000x96 .f32 := m (c, Proc.tc.devRef main_arg0)
abbrev A1 (c : Dev nD) : FVec Ideal S50000x32 .f32 := m (c, Proc.tc.devRef main_arg1)
abbrev A2 (c : Dev nD) : IVec S2x800000 32 := m (c, Proc.tc.devRef main_arg2)
abbrev A3 (c : Dev nD) : (⟨1, ![800000]⟩ : Shape).Idx → BitVec 32 := m (c, Proc.tc.devRef main_arg3)
abbrev A4 (c : Dev nD) : (⟨3, ![4, 128, 96]⟩ : Shape).Idx → EReal := m (c, Proc.tc.devRef main_arg4)
abbrev A5 (c : Dev nD) : (⟨2, ![4, 96]⟩ : Shape).Idx → EReal := m (c, Proc.tc.devRef main_arg5)

/-- An edge is at row e mod 3200 of step e / 3200. -/
theorem edge_split (e : Fin 800000) : e.val = (stepOf e).val * 3200 + (rowIn e).val := by
  show e.val = e.val / 3200 * 3200 + e.val % 3200
  omega

/-- The assembled feature tile of e's step, at e's row: e's feature row. -/
theorem feat_at (c : Dev nD) (e : Fin 800000) (k : Fin 128) :
    feat (F := Ideal) (iblk m c 0 (stepOf e)) (iblk m c 1 (stepOf e)) (ix2 (rowIn e) k)
      = ftK (A0 m c) (A1 m c) (A2 m c) (ix2 e k) := by
  by_cases hk : k.val < 96
  · rw [feat_left _ _ _ _ hk, iblk0_apply m c (stepOf e) (rowIn e) ⟨k.val, hk⟩ e (edge_split e), V30_apply]
    unfold ftK
    rw [dif_pos (show ((ix2 e k : (⟨2, ![800000, 128]⟩ : Shape).Idx) 1).val < 96 from hk)]
  · have hk' : 96 ≤ k.val := Nat.le_of_not_lt hk
    rw [feat_right _ _ _ _ hk', iblk1_apply m c (stepOf e) (rowIn e) ⟨k.val - 96, by have := k.isLt; omega⟩ e (edge_split e), V31_apply]
    unfold ftK
    rw [dif_neg (show ¬ ((ix2 e k : (⟨2, ![800000, 128]⟩ : Shape).Idx) 1).val < 96 from hk)]

/-- The 0/1 value read signed from the widened bit is the bit read unsigned. -/
theorem bit_eq (x t : BitVec 32) : bit x t = (((IntOp.cmpi .eq x t).toNat : ℝ) : EReal) := by
  unfold bit
  have h : ∀ b : BitVec 1, (b.setWidth 32).toInt = (b.toNat : ℤ) := by decide
  rw [h]
  simp

/-- Relation t's product entry for edge e and column f. -/
theorem mm_at (c : Dev nD) (e : Fin 800000) (t' : Fin 4) (f : Fin 96) (j : Fin 512) (hj : j.val = t'.val * 128 + f.val) :
    mm (feat (F := Ideal) (iblk m c 0 (stepOf e)) (iblk m c 1 (stepOf e))) (iblk m c 3 (stepOf e)) (rowIn e) j
      = ∑ k : Fin 128, ftK (A0 m c) (A1 m c) (A2 m c) (ix2 e k) * A4 m c (ix3 t' k f) := by
  unfold mm
  refine Finset.sum_congr rfl fun k _ => ?_
  rw [feat_at, iblk3_apply, V39_apply m c k t' f j hj]

/-- Relation t's masked message for edge e and column f, as the step computes it. -/
theorem term_at (c : Dev nD) (e : Fin 800000) (t' : Fin 4) (f : Fin 96) (j : Fin 512) (hj : j.val = t'.val * 128 + f.val)
    (tw : BitVec 32) (htw : tw = BitVec.ofNat 32 t'.val) (hf : f.val < 128) :
    (mm (feat (F := Ideal) (iblk m c 0 (stepOf e)) (iblk m c 1 (stepOf e))) (iblk m c 3 (stepOf e)) (rowIn e) j
        + (iblk m c 4 (stepOf e) : Vec Ideal S4x128 .f32) (ix2 t' (⟨f.val, hf⟩ : Fin 128)))
      * bit ((iblk m c 2 (stepOf e) : Vec Ideal S3200x1 .i32) (ix2 (rowIn e) 0)) tw
      = Cert.Spec.term (ftK (A0 m c) (A1 m c) (A2 m c)) (A3 m c) (A4 m c) (A5 m c) t' e f := by
  rw [mm_at m c e t' f j hj, iblk4_apply, V42_apply, iblk2_apply m c (stepOf e) (rowIn e) 0 e (edge_split e), V32_apply, bit_eq, htw]
  rfl

/-- Edge e's message row at column f: the four relations' masked messages chained from zero. -/
theorem msg_at (c : Dev nD) (e : Fin 800000) (f : Fin 96) :
    msg m c (ix2 e f)
      = (((Ideal.ofBits .f32 0x00000000#32
          + Cert.Spec.term (ftK (A0 m c) (A1 m c) (A2 m c)) (A3 m c) (A4 m c) (A5 m c) 0 e f)
          + Cert.Spec.term (ftK (A0 m c) (A1 m c) (A2 m c)) (A3 m c) (A4 m c) (A5 m c) 1 e f)
          + Cert.Spec.term (ftK (A0 m c) (A1 m c) (A2 m c)) (A3 m c) (A4 m c) (A5 m c) 2 e f)
          + Cert.Spec.term (ftK (A0 m c) (A1 m c) (A2 m c)) (A3 m c) (A4 m c) (A5 m c) 3 e f := by
  have hf := f.isLt
  show tile m c (stepOf e) (ix2 (rowIn e) f) = _
  unfold tile
  rw [body_apply]
  rw [term_at m c e 0 f _ (by show 0 + f.val = 0 * 128 + f.val; omega) 0#32 rfl (by omega),
    term_at m c e 1 f _ (by show 128 + f.val = 1 * 128 + f.val; omega) 1#32 rfl (by omega),
    term_at m c e 2 f _ (by show 256 + f.val = 2 * 128 + f.val; omega) 2#32 rfl (by omega),
    term_at m c e 3 f _ (by show 384 + f.val = 3 * 128 + f.val; omega) 3#32 rfl (by omega)]

/-- The row scatter-add of the lines after the grid, at (n, f). -/
theorem scatter_rows_at (Z : FVec Ideal S50000x96 .f32) (I : IVec S800000x1 32) (M : FVec Ideal S800000x96 .f32) (n : Fin 50000) (f : Fin 96) :
    Host.scatterAdd scatter_S50000x96_S800000x1_S800000x96_1_0_0_1 Z I M (ix2 n f)
      = Z (ix2 n f) + ∑ e : Fin 800000, if (I (ix2 e (0 : Fin 1))).toInt = (n.val : ℤ) then M (ix2 e f) else 0 :=
  Cert.LibScatterRows.scatterAdd_rows_apply scatter_S50000x96_S800000x1_S800000x96_1_0_0_1_wf Z I M n f

/-- A vector of words as a one-column matrix, at (e, 0). -/
theorem col_at (v : IVec S800000 32) (e : Fin 800000) :
    (broadcastInDim S800000x1 ![0] bcast_S800000_S800000x1_0 v) (ix2 e (0 : Fin 1)) = v (ix1 e) :=
  broadcastInDim_apply _ bcast_S800000_S800000x1_0 v _ (ix1 e) (fun a => by
    match a with
    | ⟨0, _⟩ => show e.val = if (800000 : Nat) = 1 then 0 else e.val; rw [if_neg (by decide)])

/-- THE KERNEL PROGRAM'S RESULT at node n, column f is the specification of the kernel's own feature rows and
    destination words. -/
theorem kernel_apply (c : Dev nD) (n : Fin 50000) (f : Fin 96) :
    (Pipeline.afterTail₀ cfgs (dats m) 0 (V0 m) [hostOps1] c main_v48 : S50000x96.Idx → EReal) (ix2 n f)
      = Cert.Spec.out (ftK (A0 m c) (A1 m c) (A2 m c)) (dstK (A2 m c)) (A3 m c) (A4 m c) (A5 m c) n f := by
  rw [Tail.tail_eq, mulf_apply]
  rw [scatter_rows_at]
  have hidx : ∀ e : Fin 800000,
      ((broadcastInDim S800000x1 ![0] bcast_S800000_S800000x1_0 (V m c main_v33)) (ix2 e (0 : Fin 1)) : BitVec 32)
        = dstK (A2 m c) (ix1 e) := fun e => (col_at (V m c main_v33) e).trans (V33_apply m c (ix1 e))
  simp only [hidx, msg_at]
  show (Ideal.ofBits .f32 0x00000000#32 + _) * Ideal.ofBits .f32 0x3E800000#32 = _
  unfold Cert.Spec.out
  have hsum := Cert.Bridge.sum_chain_eq_sum_totals (fun e : Fin 800000 => (dstK (A2 m c) (ix1 e)).toInt = (n.val : ℤ))
    (fun t e => Cert.Spec.term (ftK (A0 m c) (A1 m c) (A2 m c)) (A3 m c) (A4 m c) (A5 m c) t e f)
  rw [Cert.Bridge.ofBits_zero, hsum, Cert.Bridge.mul_quarter]

end Cert.KernelIdeal.KernelAt

end
-- ==== Proof.RefAt.lean ====
/-
  The reference program's result read at a node n and a column f is the layer's specification.

  The reference computes, for each of the four relations t, the masked message of every edge
      term t e f = (Σ_k feat(e, k) · W(t, k, f) + b(t, f)) · [relation word of e = t],
  adds the messages of the edges whose destination is n into a zero array (a scatter-add of whole rows, the
  destination word read signed and an out-of-range destination dropped), stacks the four results along a new
  leading axis, sums that axis from +0.0 and divides by 4.0. Read at (n, f):

      result n f = (0 + Σ_t (0 + Σ_{e : destination of e is n} term t e f)) / 4.

  The per-edge feature rows feat and the destination vector are left as they are computed; nothing about them
  is used. The slices of W and b for relation t read W(t, ·, ·) and b(t, ·): a reshape that drops a leading
  unit axis keeps the other coordinates (k·96 + f over 96 is k, modulo 96 is f).
-/
import proofs.«125978_j82308753260705_2_alg».proof.Proof.Gen.ReferenceIdeal.Read
import proofs.«125978_j82308753260705_2_alg».proof.Proof.Spec
import proofs.«125978_j82308753260705_2_alg».proof.Proof.LibScatterRows

noncomputable section

open scoped BigOperators

namespace Cert.ReferenceIdeal.RefAt

open Cert.ReferenceIdeal Cert.ReferenceIdeal.Read Idealize.ShloMosaic Idealize.ShloMosaic.ValueIdx

/-! ## Four unit slabs stacked along a new leading axis, read at an index -/

section Stack
variable {α : Type} {N C : Nat}

/-- The list of the four slabs with their shape. -/
abbrev slabs (y0 y1 y2 y3 : (⟨3, ![1, N, C]⟩ : Shape).Idx → α) : List ((s : Shape) × (s.Idx → α)) :=
  [⟨⟨3, ![1, N, C]⟩, y0⟩, ⟨⟨3, ![1, N, C]⟩, y1⟩, ⟨⟨3, ![1, N, C]⟩, y2⟩, ⟨⟨3, ![1, N, C]⟩, y3⟩]

/-- Slab k of the stack, by its position. -/
theorem stack4_piece (y0 y1 y2 y3 : (⟨3, ![1, N, C]⟩ : Shape).Idx → α)
    (h : Shape.Concatenates ((slabs y0 y1 y2 y3).map (·.1)) ⟨3, ![4, N, C]⟩ 0)
    (k : Nat) (hk : k < 4) (y : (⟨3, ![1, N, C]⟩ : Shape).Idx → α)
    (hy : (slabs y0 y1 y2 y3)[k]'hk = ⟨⟨3, ![1, N, C]⟩, y⟩)
    (hpre : ((((slabs y0 y1 y2 y3).take k).map (·.1)).map fun s =>
      if h : s.rank = (⟨3, ![4, N, C]⟩ : Shape).rank then s.size ((0 : Fin 3).cast h.symm) else 0).sum = k)
    (n : Fin N) (f : Fin C) :
    concatenate ⟨3, ![4, N, C]⟩ 0 (slabs y0 y1 y2 y3) h (ix3 (⟨k, hk⟩ : Fin 4) n f) = y (ix3 (0 : Fin 1) n f) := by
  refine concatenate_apply_piece (0 : Fin 3) (slabs y0 y1 y2 y3) h (ix3 (⟨k, hk⟩ : Fin 4) n f) k hk
    ⟨3, ![1, N, C]⟩ y hy rfl k hpre (ix3 (0 : Fin 1) n f) ?_ ?_
  · intro b hb
    match b with
    | ⟨0, _⟩ => exact absurd rfl hb
    | ⟨1, _⟩ => rfl
    | ⟨2, _⟩ => rfl
  · rfl

end Stack

/-! ## The four relations, one at a time -/

/-- Relation 0: the update the scatter adds for edge e, column f, is the masked message. -/
theorem upd0_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (e : Fin 800000) (f : Fin 96) :
    val_main_v41 (F := Ideal) x0 x1 x2 x3 x4 x5 (ix2 e f)
      = Cert.Spec.term (val_main_v27 (F := Ideal) x0 x1 x2) x3 x4 x5 (0 : Fin 4) e f := by
  have hf : f.val < 96 := f.isLt
  have e1 : ∀ k : Fin 128, lidx_main_v34 (ix2 e f) k = ix2 e k := fun k => funext fun a => Fin.ext (by
    match a with
    | ⟨0, _⟩ => rfl
    | ⟨1, _⟩ => rfl)
  have e2 : ∀ k : Fin 128, idx_main_v32 (idx_main_v33 (ridx_main_v34 (ix2 e f) k)) = ix3 (0 : Fin 4) k f :=
    fun k => funext fun a => Fin.ext (by
      have hk : k.val < 128 := k.isLt
      match a with
      | ⟨0, _⟩ => rfl
      | ⟨1, _⟩ => show (k.val * 96 + f.val) / 96 % 128 = k.val; omega
      | ⟨2, _⟩ => show (k.val * 96 + f.val) % 96 = f.val; omega)
  have e3 : idx_main_v35 (idx_main_v36 (idx_main_v37 (idx_main_v38 (ix2 e f)))) = ix2 (0 : Fin 4) f :=
    funext fun a => Fin.ext (by
      match a with
      | ⟨0, _⟩ => rfl
      | ⟨1, _⟩ => show f.val % 96 = f.val; omega)
  have e4 : idx_main_v31 (idx_main_v40 (ix2 e f)) = ix1 e := funext fun a => Fin.ext (by
    match a with
    | ⟨0, _⟩ => rfl)
  rw [val_main_v41_apply, val_main_v39_apply, val_main_v34_apply, val_main_v38_apply, val_main_v37_apply,
    val_main_v36_apply, val_main_v35_apply, val_main_v40_apply, val_main_v31_apply, val_main_v30_apply,
    val_main_v29_apply, val_main_v28_apply, val_main_c_5_apply, e3, e4]
  simp only [val_main_v33_apply, val_main_v32_apply, e1, e2]
  rfl

/-- Relation 0: the scatter result at node n, column f, is +0.0 plus the masked messages of the edges into n. -/
theorem sc0_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (n : Fin 50000) (f : Fin 96) :
    val_main_v44 (F := Ideal) x0 x1 x2 x3 x4 x5 (ix2 n f)
      = Ideal.ofBits .f32 0x00000000#32 + ∑ e : Fin 800000,
          if (val_main_v3 (F := Ideal) x2 (ix1 e)).toInt = (n.val : ℤ)
            then Cert.Spec.term (val_main_v27 (F := Ideal) x0 x1 x2) x3 x4 x5 (0 : Fin 4) e f else 0 := by
  unfold val_main_v44
  refine (Cert.LibScatterRows.scatterAdd_rows_apply
    Facts₀.scatter_S50000x96_S800000x1_S800000x96_1_0_0_1_wf _ _ _ n f).trans ?_
  rw [val_main_v42_apply, val_main_cst_apply, Ideal.ofBits_def]
  refine congrArg (_ + ·) (Finset.sum_congr rfl fun e _ => ?_)
  have e5 : idx_main_v43 (ix2 e (0 : Fin 1)) = ix1 e := funext fun a => Fin.ext (by
    match a with
    | ⟨0, _⟩ => rfl)
  rw [val_main_v43_apply, e5, upd0_apply]

/-- Relation 1: the update the scatter adds for edge e, column f, is the masked message. -/
theorem upd1_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (e : Fin 800000) (f : Fin 96) :
    val_main_v58 (F := Ideal) x0 x1 x2 x3 x4 x5 (ix2 e f)
      = Cert.Spec.term (val_main_v27 (F := Ideal) x0 x1 x2) x3 x4 x5 (1 : Fin 4) e f := by
  have hf : f.val < 96 := f.isLt
  have e1 : ∀ k : Fin 128, lidx_main_v51 (ix2 e f) k = ix2 e k := fun k => funext fun a => Fin.ext (by
    match a with
    | ⟨0, _⟩ => rfl
    | ⟨1, _⟩ => rfl)
  have e2 : ∀ k : Fin 128, idx_main_v49 (idx_main_v50 (ridx_main_v51 (ix2 e f) k)) = ix3 (1 : Fin 4) k f :=
    fun k => funext fun a => Fin.ext (by
      have hk : k.val < 128 := k.isLt
      match a with
      | ⟨0, _⟩ => rfl
      | ⟨1, _⟩ => show (k.val * 96 + f.val) / 96 % 128 = k.val; omega
      | ⟨2, _⟩ => show (k.val * 96 + f.val) % 96 = f.val; omega)
  have e3 : idx_main_v52 (idx_main_v53 (idx_main_v54 (idx_main_v55 (ix2 e f)))) = ix2 (1 : Fin 4) f :=
    funext fun a => Fin.ext (by
      match a with
      | ⟨0, _⟩ => rfl
      | ⟨1, _⟩ => show f.val % 96 = f.val; omega)
  have e4 : idx_main_v48 (idx_main_v57 (ix2 e f)) = ix1 e := funext fun a => Fin.ext (by
    match a with
    | ⟨0, _⟩ => rfl)
  rw [val_main_v58_apply, val_main_v56_apply, val_main_v51_apply, val_main_v55_apply, val_main_v54_apply,
    val_main_v53_apply, val_main_v52_apply, val_main_v57_apply, val_main_v48_apply, val_main_v47_apply,
    val_main_v46_apply, val_main_v45_apply, val_main_c_6_apply, e3, e4]
  simp only [val_main_v50_apply, val_main_v49_apply, e1, e2]
  rfl

/-- Relation 1: the scatter result at node n, column f, is +0.0 plus the masked messages of the edges into n. -/
theorem sc1_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (n : Fin 50000) (f : Fin 96) :
    val_main_v61 (F := Ideal) x0 x1 x2 x3 x4 x5 (ix2 n f)
      = Ideal.ofBits .f32 0x00000000#32 + ∑ e : Fin 800000,
          if (val_main_v3 (F := Ideal) x2 (ix1 e)).toInt = (n.val : ℤ)
            then Cert.Spec.term (val_main_v27 (F := Ideal) x0 x1 x2) x3 x4 x5 (1 : Fin 4) e f else 0 := by
  unfold val_main_v61
  refine (Cert.LibScatterRows.scatterAdd_rows_apply
    Facts₀.scatter_S50000x96_S800000x1_S800000x96_1_0_0_1_wf _ _ _ n f).trans ?_
  rw [val_main_v59_apply, val_main_cst_7_apply, Ideal.ofBits_def]
  refine congrArg (_ + ·) (Finset.sum_congr rfl fun e _ => ?_)
  have e5 : idx_main_v60 (ix2 e (0 : Fin 1)) = ix1 e := funext fun a => Fin.ext (by
    match a with
    | ⟨0, _⟩ => rfl)
  rw [val_main_v60_apply, e5, upd1_apply]

/-- Relation 2: the update the scatter adds for edge e, column f, is the masked message. -/
theorem upd2_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (e : Fin 800000) (f : Fin 96) :
    val_main_v75 (F := Ideal) x0 x1 x2 x3 x4 x5 (ix2 e f)
      = Cert.Spec.term (val_main_v27 (F := Ideal) x0 x1 x2) x3 x4 x5 (2 : Fin 4) e f := by
  have hf : f.val < 96 := f.isLt
  have e1 : ∀ k : Fin 128, lidx_main_v68 (ix2 e f) k = ix2 e k := fun k => funext fun a => Fin.ext (by
    match a with
    | ⟨0, _⟩ => rfl
    | ⟨1, _⟩ => rfl)
  have e2 : ∀ k : Fin 128, idx_main_v66 (idx_main_v67 (ridx_main_v68 (ix2 e f) k)) = ix3 (2 : Fin 4) k f :=
    fun k => funext fun a => Fin.ext (by
      have hk : k.val < 128 := k.isLt
      match a with
      | ⟨0, _⟩ => rfl
      | ⟨1, _⟩ => show (k.val * 96 + f.val) / 96 % 128 = k.val; omega
      | ⟨2, _⟩ => show (k.val * 96 + f.val) % 96 = f.val; omega)
  have e3 : idx_main_v69 (idx_main_v70 (idx_main_v71 (idx_main_v72 (ix2 e f)))) = ix2 (2 : Fin 4) f :=
    funext fun a => Fin.ext (by
      match a with
      | ⟨0, _⟩ => rfl
      | ⟨1, _⟩ => show f.val % 96 = f.val; omega)
  have e4 : idx_main_v65 (idx_main_v74 (ix2 e f)) = ix1 e := funext fun a => Fin.ext (by
    match a with
    | ⟨0, _⟩ => rfl)
  rw [val_main_v75_apply, val_main_v73_apply, val_main_v68_apply, val_main_v72_apply, val_main_v71_apply,
    val_main_v70_apply, val_main_v69_apply, val_main_v74_apply, val_main_v65_apply, val_main_v64_apply,
    val_main_v63_apply, val_main_v62_apply, val_main_c_8_apply, e3, e4]
  simp only [val_main_v67_apply, val_main_v66_apply, e1, e2]
  rfl

/-- Relation 2: the scatter result at node n, column f, is +0.0 plus the masked messages of the edges into n. -/
theorem sc2_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (n : Fin 50000) (f : Fin 96) :
    val_main_v78 (F := Ideal) x0 x1 x2 x3 x4 x5 (ix2 n f)
      = Ideal.ofBits .f32 0x00000000#32 + ∑ e : Fin 800000,
          if (val_main_v3 (F := Ideal) x2 (ix1 e)).toInt = (n.val : ℤ)
            then Cert.Spec.term (val_main_v27 (F := Ideal) x0 x1 x2) x3 x4 x5 (2 : Fin 4) e f else 0 := by
  unfold val_main_v78
  refine (Cert.LibScatterRows.scatterAdd_rows_apply
    Facts₀.scatter_S50000x96_S800000x1_S800000x96_1_0_0_1_wf _ _ _ n f).trans ?_
  rw [val_main_v76_apply, val_main_cst_9_apply, Ideal.ofBits_def]
  refine congrArg (_ + ·) (Finset.sum_congr rfl fun e _ => ?_)
  have e5 : idx_main_v77 (ix2 e (0 : Fin 1)) = ix1 e := funext fun a => Fin.ext (by
    match a with
    | ⟨0, _⟩ => rfl)
  rw [val_main_v77_apply, e5, upd2_apply]

/-- Relation 3: the update the scatter adds for edge e, column f, is the masked message. -/
theorem upd3_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (e : Fin 800000) (f : Fin 96) :
    val_main_v92 (F := Ideal) x0 x1 x2 x3 x4 x5 (ix2 e f)
      = Cert.Spec.term (val_main_v27 (F := Ideal) x0 x1 x2) x3 x4 x5 (3 : Fin 4) e f := by
  have hf : f.val < 96 := f.isLt
  have e1 : ∀ k : Fin 128, lidx_main_v85 (ix2 e f) k = ix2 e k := fun k => funext fun a => Fin.ext (by
    match a with
    | ⟨0, _⟩ => rfl
    | ⟨1, _⟩ => rfl)
  have e2 : ∀ k : Fin 128, idx_main_v83 (idx_main_v84 (ridx_main_v85 (ix2 e f) k)) = ix3 (3 : Fin 4) k f :=
    fun k => funext fun a => Fin.ext (by
      have hk : k.val < 128 := k.isLt
      match a with
      | ⟨0, _⟩ => rfl
      | ⟨1, _⟩ => show (k.val * 96 + f.val) / 96 % 128 = k.val; omega
      | ⟨2, _⟩ => show (k.val * 96 + f.val) % 96 = f.val; omega)
  have e3 : idx_main_v86 (idx_main_v87 (idx_main_v88 (idx_main_v89 (ix2 e f)))) = ix2 (3 : Fin 4) f :=
    funext fun a => Fin.ext (by
      match a with
      | ⟨0, _⟩ => rfl
      | ⟨1, _⟩ => show f.val % 96 = f.val; omega)
  have e4 : idx_main_v82 (idx_main_v91 (ix2 e f)) = ix1 e := funext fun a => Fin.ext (by
    match a with
    | ⟨0, _⟩ => rfl)
  rw [val_main_v92_apply, val_main_v90_apply, val_main_v85_apply, val_main_v89_apply, val_main_v88_apply,
    val_main_v87_apply, val_main_v86_apply, val_main_v91_apply, val_main_v82_apply, val_main_v81_apply,
    val_main_v80_apply, val_main_v79_apply, val_main_c_10_apply, e3, e4]
  simp only [val_main_v84_apply, val_main_v83_apply, e1, e2]
  rfl

/-- Relation 3: the scatter result at node n, column f, is +0.0 plus the masked messages of the edges into n. -/
theorem sc3_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (n : Fin 50000) (f : Fin 96) :
    val_main_v95 (F := Ideal) x0 x1 x2 x3 x4 x5 (ix2 n f)
      = Ideal.ofBits .f32 0x00000000#32 + ∑ e : Fin 800000,
          if (val_main_v3 (F := Ideal) x2 (ix1 e)).toInt = (n.val : ℤ)
            then Cert.Spec.term (val_main_v27 (F := Ideal) x0 x1 x2) x3 x4 x5 (3 : Fin 4) e f else 0 := by
  unfold val_main_v95
  refine (Cert.LibScatterRows.scatterAdd_rows_apply
    Facts₀.scatter_S50000x96_S800000x1_S800000x96_1_0_0_1_wf _ _ _ n f).trans ?_
  rw [val_main_v93_apply, val_main_cst_11_apply, Ideal.ofBits_def]
  refine congrArg (_ + ·) (Finset.sum_congr rfl fun e _ => ?_)
  have e5 : idx_main_v94 (ix2 e (0 : Fin 1)) = ix1 e := funext fun a => Fin.ext (by
    match a with
    | ⟨0, _⟩ => rfl)
  rw [val_main_v94_apply, e5, upd3_apply]

/-! ## The four relations stacked, summed and divided -/

/-- Slab k of the stacked scatter results at (n, f) is relation k's scatter result there. -/
theorem stack_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (k : Fin 4) (n : Fin 50000) (f : Fin 96) :
    val_main_v100 (F := Ideal) x0 x1 x2 x3 x4 x5 (ix3 k n f)
      = Ideal.ofBits .f32 0x00000000#32 + ∑ e : Fin 800000,
          if (val_main_v3 (F := Ideal) x2 (ix1 e)).toInt = (n.val : ℤ)
            then Cert.Spec.term (val_main_v27 (F := Ideal) x0 x1 x2) x3 x4 x5 k e f else 0 := by
  have eb : ∀ i : S1x50000x96.Idx, i = ix3 (0 : Fin 1) n f → idx_main_v96 i = ix2 n f := by
    rintro i rfl
    exact funext fun a => Fin.ext (by
      match a with
      | ⟨0, _⟩ => rfl
      | ⟨1, _⟩ => rfl)
  unfold val_main_v100
  match k with
  | ⟨0, _⟩ =>
    refine (stack4_piece (val_main_v96 (F := Ideal) x0 x1 x2 x3 x4 x5) (val_main_v97 (F := Ideal) x0 x1 x2 x3 x4 x5) (val_main_v98 (F := Ideal) x0 x1 x2 x3 x4 x5) (val_main_v99 (F := Ideal) x0 x1 x2 x3 x4 x5)
      Facts₀.concatenates_S1x50000x96_S1x50000x96_S1x50000x96_S1x50000x96_S4x50000x96_d0 0 (by decide)
      (val_main_v96 (F := Ideal) x0 x1 x2 x3 x4 x5) rfl rfl n f).trans ?_
    rw [val_main_v96_apply]
    exact (congrArg (val_main_v44 (F := Ideal) x0 x1 x2 x3 x4 x5) (eb _ rfl)).trans (sc0_apply x0 x1 x2 x3 x4 x5 n f)
  | ⟨1, _⟩ =>
    refine (stack4_piece (val_main_v96 (F := Ideal) x0 x1 x2 x3 x4 x5) (val_main_v97 (F := Ideal) x0 x1 x2 x3 x4 x5) (val_main_v98 (F := Ideal) x0 x1 x2 x3 x4 x5) (val_main_v99 (F := Ideal) x0 x1 x2 x3 x4 x5)
      Facts₀.concatenates_S1x50000x96_S1x50000x96_S1x50000x96_S1x50000x96_S4x50000x96_d0 1 (by decide)
      (val_main_v97 (F := Ideal) x0 x1 x2 x3 x4 x5) rfl rfl n f).trans ?_
    rw [val_main_v97_apply]
    exact (congrArg (val_main_v61 (F := Ideal) x0 x1 x2 x3 x4 x5) (eb _ rfl)).trans (sc1_apply x0 x1 x2 x3 x4 x5 n f)
  | ⟨2, _⟩ =>
    refine (stack4_piece (val_main_v96 (F := Ideal) x0 x1 x2 x3 x4 x5) (val_main_v97 (F := Ideal) x0 x1 x2 x3 x4 x5) (val_main_v98 (F := Ideal) x0 x1 x2 x3 x4 x5) (val_main_v99 (F := Ideal) x0 x1 x2 x3 x4 x5)
      Facts₀.concatenates_S1x50000x96_S1x50000x96_S1x50000x96_S1x50000x96_S4x50000x96_d0 2 (by decide)
      (val_main_v98 (F := Ideal) x0 x1 x2 x3 x4 x5) rfl rfl n f).trans ?_
    rw [val_main_v98_apply]
    exact (congrArg (val_main_v78 (F := Ideal) x0 x1 x2 x3 x4 x5) (eb _ rfl)).trans (sc2_apply x0 x1 x2 x3 x4 x5 n f)
  | ⟨3, _⟩ =>
    refine (stack4_piece (val_main_v96 (F := Ideal) x0 x1 x2 x3 x4 x5) (val_main_v97 (F := Ideal) x0 x1 x2 x3 x4 x5) (val_main_v98 (F := Ideal) x0 x1 x2 x3 x4 x5) (val_main_v99 (F := Ideal) x0 x1 x2 x3 x4 x5)
      Facts₀.concatenates_S1x50000x96_S1x50000x96_S1x50000x96_S1x50000x96_S4x50000x96_d0 3 (by decide)
      (val_main_v99 (F := Ideal) x0 x1 x2 x3 x4 x5) rfl rfl n f).trans ?_
    rw [val_main_v99_apply]
    exact (congrArg (val_main_v95 (F := Ideal) x0 x1 x2 x3 x4 x5) (eb _ rfl)).trans (sc3_apply x0 x1 x2 x3 x4 x5 n f)

/-- THE REFERENCE READ AT (n, f): the specification. -/
theorem ref_apply (x0 : (⟨S50000x96, .f32⟩ : BufTy).Contents (Elt Ideal)) (x1 : (⟨S50000x32, .f32⟩ : BufTy).Contents (Elt Ideal)) (x2 : (⟨S2x800000, .i32⟩ : BufTy).Contents (Elt Ideal)) (x3 : (⟨S800000, .i32⟩ : BufTy).Contents (Elt Ideal)) (x4 : (⟨S4x128x96, .f32⟩ : BufTy).Contents (Elt Ideal)) (x5 : (⟨S4x96, .f32⟩ : BufTy).Contents (Elt Ideal)) (n : Fin 50000) (f : Fin 96) :
    val_main_v103 (F := Ideal) x0 x1 x2 x3 x4 x5 (ix2 n f)
      = Cert.Spec.out (val_main_v27 (F := Ideal) x0 x1 x2) (val_main_v3 (F := Ideal) x2) x3 x4 x5 n f := by
  have ei : ∀ k : Fin 4, idx_main_v101 (ix2 n f) k = ix3 k n f := fun k => funext fun a => Fin.ext (by
    match a with
    | ⟨0, _⟩ => rfl
    | ⟨1, _⟩ => rfl
    | ⟨2, _⟩ => rfl)
  rw [val_main_v103_apply, val_main_v101_apply, val_main_v102_apply, val_main_cst_13_apply, val_main_cst_12_apply,
    Ideal.hostDivf_def, Ideal.ofBits_def, Ideal.ofBits_def]
  simp only [ei, stack_apply]
  rfl

end Cert.ReferenceIdeal.RefAt

end
-- ==== Proof.Same.lean ====
/-
  The kernel program and the reference build the same per-edge feature rows and read the same destination words: both
  gather the node rows at the wrapped source words of row 0 of the edge list, both take the absolute difference of the
  edge-feature rows gathered at the source and destination words, the reference joins the two side by side, and both
  take row 1 of the edge list as the destinations. The two programs spell these with the same operations of the same
  arguments, so the equalities hold by unfolding.
-/
import proofs.«125978_j82308753260705_2_alg».proof.Proof.Gen.ReferenceIdeal.Read
import proofs.«125978_j82308753260705_2_alg».proof.Proof.KernelAt
import proofs.«125978_j82308753260705_2_alg».proof.Proof.LibColumnBlocks

set_option maxRecDepth 16384

noncomputable section

open Idealize.ShloMosaic Idealize.ShloMosaic.TcCoe Idealize.SL.Sem Idealize.ShloMosaic.ValueIdx

namespace Cert.Proof.Same

open Cert.KernelIdeal.HostIn Cert.KernelIdeal.KernelAt Cert.ReferenceIdeal.Read

/-- The gathered node rows. -/
theorem xs_eq (x0 : FVec Ideal Cert.KernelIdeal.S50000x96 .f32) (x2 : IVec Cert.KernelIdeal.S2x800000 32) :
    xsK x0 x2 = val_main_v26 (F := Ideal) x0 x2 := rfl

/-- The edge-feature differences. -/
theorem ef_eq (x1 : FVec Ideal Cert.KernelIdeal.S50000x32 .f32) (x2 : IVec Cert.KernelIdeal.S2x800000 32) :
    efK x1 x2 = val_main_v19 (F := Ideal) x1 x2 := rfl

/-- The destination words. -/
theorem dst_eq (x2 : IVec Cert.KernelIdeal.S2x800000 32) : dstK x2 = val_main_v3 (F := Ideal) x2 := rfl

/-- The feature rows: the reference's side-by-side join reads the node row left of column 96 and the edge-feature
    differences from column 96 on. -/
theorem ft_eq (x0 : FVec Ideal Cert.KernelIdeal.S50000x96 .f32) (x1 : FVec Ideal Cert.KernelIdeal.S50000x32 .f32)
    (x2 : IVec Cert.KernelIdeal.S2x800000 32) : ftK x0 x1 x2 = val_main_v27 (F := Ideal) x0 x1 x2 := by
  funext i
  obtain ⟨e, k, rfl⟩ : ∃ (e : Fin 800000) (k : Fin 128), i = ix2 e k := ⟨i 0, i 1, eq_ix2 i⟩
  unfold ftK val_main_v27
  by_cases hk : k.val < 96
  · rw [dif_pos (show ((ix2 e k : (⟨2, ![800000, 128]⟩ : Shape).Idx) 1).val < 96 from hk), xs_eq]
    exact (Cert.LibColumnBlocks.cat2_left _ _ _ e k hk).symm
  · have hk' : 96 ≤ k.val := Nat.le_of_not_lt hk
    rw [dif_neg (show ¬ ((ix2 e k : (⟨2, ![800000, 128]⟩ : Shape).Idx) 1).val < 96 from hk), ef_eq]
    exact (Cert.LibColumnBlocks.cat2_right _ _ _ e k hk' (by have := k.isLt; omega)).symm

end Cert.Proof.Same

end
-- ==== Proof.lean ====
/-
  A relational edge-convolution layer: the tiled kernel against the plain reference, over the extended reals.

  For every edge e the feature row is the source node's row followed by the absolute difference of the two endpoints'
  edge-feature rows. For each of four relations t the edge's message is (feature row · W[t] + b[t]) times the 0/1 mask
  "the edge's relation is t". The reference adds, per relation, the messages of the edges arriving at each node and
  averages the four totals (sum, then divide by 4). The kernel program multiplies each 3200-row tile of feature rows
  by ONE 128 x 512 slab holding the four weight matrices side by side (each widened from 96 to 128 columns by zeros),
  adds the four masked messages of every edge first, adds the edges' message rows arriving at each node, and scales by
  0.25.

  The frames of the two kernel programs and the reference's run are generated. Written by hand: what one grid step
  stores as a pure term of its input tiles (Proof/BodyValue.lean) and that term at a row and a column
  (Proof/BodyAt.lean, Proof/FeatAt.lean); the message array the 250 steps leave (Proof/Final.lean); what the lines
  before the grid put in the grid's input arrays (Proof/HostIn.lean, Proof/Blocks.lean) and what the lines after it make
  of the message array (Proof/Tail.lean, Proof/KernelRun.lean); the kernel program's result at a node and a column
  (Proof/KernelAt.lean); the reference's result there (Proof/RefAt.lean); that both programs read the same feature
  rows and destinations (Proof/Same.lean); and the specification both meet (Proof/Spec.lean) with the two laws that
  join them (Proof/SumSwap.lean): sums over edges and over relations commute in any commutative monoid, and
  multiplying by 0.25 is dividing by 4 on every extended real. No finiteness of the inputs is used.
-/
import proofs.«125978_j82308753260705_2_alg».proof.Defs
import proofs.«125978_j82308753260705_2_alg».proof.Proof.Gen.Kernel
import proofs.«125978_j82308753260705_2_alg».proof.Proof.Gen.Kernel.Skeleton
import proofs.«125978_j82308753260705_2_alg».proof.Proof.Gen.Kernel.Launch
import proofs.«125978_j82308753260705_2_alg».proof.Proof.Gen.Kernel.Points
import proofs.«125978_j82308753260705_2_alg».proof.Proof.Gen.Kernel.Frame
import proofs.«125978_j82308753260705_2_alg».proof.Proof.Gen.KernelIdeal
import proofs.«125978_j82308753260705_2_alg».proof.Proof.Gen.KernelIdeal.Skeleton
import proofs.«125978_j82308753260705_2_alg».proof.Proof.Gen.KernelIdeal.Launch
import proofs.«125978_j82308753260705_2_alg».proof.Proof.Gen.KernelIdeal.Points
import proofs.«125978_j82308753260705_2_alg».proof.Proof.Gen.KernelIdeal.Frame
import proofs.«125978_j82308753260705_2_alg».proof.Proof.Gen.ReferenceIdeal
import proofs.«125978_j82308753260705_2_alg».proof.Proof.Gen.Pre_finite_inputs
import proofs.«125978_j82308753260705_2_alg».proof.Proof.Gen.ReferenceIdeal.Run
import proofs.«125978_j82308753260705_2_alg».proof.Proof.Gen.ReferenceIdeal.Read
import proofs.«125978_j82308753260705_2_alg».proof.Proof.KernelRun
import proofs.«125978_j82308753260705_2_alg».proof.Proof.KernelAt
import proofs.«125978_j82308753260705_2_alg».proof.Proof.RefAt
import proofs.«125978_j82308753260705_2_alg».proof.Proof.Same
import Idealize.ShloMosaic.Adequacy
import Idealize.ShloMosaic.Init

noncomputable section

namespace Cert.Proof

open Idealize.ShloMosaic Idealize.SL.Sem Idealize.ShloMosaic.ValueIdx

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end at the specification of the same feature rows, destinations, relation
    words, weights and biases, node by node and column by column. -/
theorem algebraic : Cert.algebraic_KernelIdeal_ReferenceIdeal := by
  intro m ρ m' ρ' _ hagree
  refine ⟨fun c => Cert.KernelIdeal.KernelRun.result m c, Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, (hagree c).1, (hagree c).2.1, (hagree c).2.2.1, (hagree c).2.2.2.1,
    (hagree c).2.2.2.2.1, (hagree c).2.2.2.2.2]
  funext i
  obtain ⟨n, f, rfl⟩ : ∃ (n : Fin 50000) (f : Fin 96), i = ix2 n f := ⟨i 0, i 1, eq_ix2 i⟩
  rw [Cert.ReferenceIdeal.RefAt.ref_apply]
  refine Eq.trans ?_ (Cert.KernelIdeal.KernelAt.kernel_apply m c n f).symm
  rw [Cert.Proof.Same.ft_eq, Cert.Proof.Same.dst_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
